-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg12 : FVec F S64 .f32) (main_arg13 : FVec F S64 .f32) (main_arg14 : FVec F S64x1 .f32) (main_arg15 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg14
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg15 main_v63 main_v67

def fn_part2 {F : FTy → Type} [FloatOps F] (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64x1 .f32) (main_arg15 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_v48 main_v49 main_v50

def fn_part1 {F : FTy → Type} [FloatOps F] (main_arg5 : FVec F S64 .f32) (main_arg6 : FVec F S64x64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64x1 .f32) (main_arg15 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x64 .f32) (main_arg1 : IVec S2x1000000 32) (main_arg2 : FVec F S128x64 .f32) (main_arg3 : FVec F S64 .f32) (main_arg4 : FVec F S64 .f32) (main_arg5 : FVec F S64 .f32) (main_arg6 : FVec F S64x64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64x1 .f32) (main_arg15 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x64 : Shape := ⟨2, ![100000, 64]⟩
abbrev S2x1000000 : Shape := ⟨2, ![2, 1000000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1000000x128 : Shape := ⟨2, ![1000000, 128]⟩
abbrev S1x64 : Shape := ⟨2, ![1, 64]⟩
abbrev S1x1 : Shape := ⟨2, ![1, 1]⟩
abbrev S8000x128 : Shape := ⟨2, ![8000, 128]⟩
abbrev S8000x1 : Shape := ⟨2, ![8000, 1]⟩
abbrev S8000x64 : Shape := ⟨2, ![8000, 64]⟩
abbrev S8000 : Shape := ⟨1, ![8000]⟩

abbrev nBuf : Space → Nat
  | .hbm => 56
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S128x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64x1, .f32⟩
  | .hbm, ⟨15, _⟩ => ⟨S1, .f32⟩
  | .hbm, ⟨16, _⟩ => ⟨S100000x64, .bf16⟩
  | .hbm, ⟨17, _⟩ => ⟨S1x1000000, .i32⟩
  | .hbm, ⟨18, _⟩ => ⟨S1000000, .i32⟩
  | .hbm, ⟨19, _⟩ => ⟨S1x1000000, .i32⟩
  | .hbm, ⟨20, _⟩ => ⟨S1000000, .i32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x64, .bf16⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000x64, .bf16⟩
  | .hbm, ⟨39, _⟩ => ⟨S1000000x128, .bf16⟩
  | .hbm, ⟨40, _⟩ => ⟨S128x64, .bf16⟩
  | .hbm, ⟨41, _⟩ => ⟨S64x64, .bf16⟩
  | .hbm, ⟨42, _⟩ => ⟨S64x64, .bf16⟩
  | .hbm, ⟨43, _⟩ => ⟨S64x1, .bf16⟩
  | .hbm, ⟨44, _⟩ => ⟨S1x64, .f32⟩
  | .hbm, ⟨45, _⟩ => ⟨S1x64, .f32⟩
  | .hbm, ⟨46, _⟩ => ⟨S1x64, .f32⟩
  | .hbm, ⟨47, _⟩ => ⟨S1x64, .f32⟩
  | .hbm, ⟨48, _⟩ => ⟨S1x64, .f32⟩
  | .hbm, ⟨49, _⟩ => ⟨S1x64, .f32⟩
  | .hbm, ⟨50, _⟩ => ⟨S1x64, .f32⟩
  | .hbm, ⟨51, _⟩ => ⟨S1x64, .f32⟩
  | .hbm, ⟨52, _⟩ => ⟨S1x64, .f32⟩
  | .hbm, ⟨53, _⟩ => ⟨S1x1, .f32⟩
  | .hbm, ⟨54, _⟩ => ⟨S1000000x1, .f32⟩
  | .hbm, ⟨55, _⟩ => ⟨S1000000, .f32⟩
  | .local _ .vmem, ⟨0, _⟩ => ⟨S8000x128, .bf16⟩
  | .local _ .vmem, ⟨1, _⟩ => ⟨S8000x128, .bf16⟩
  | .local _ .vmem, ⟨2, _⟩ => ⟨S128x64, .bf16⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S64x64, .bf16⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S64x64, .bf16⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S64x1, .bf16⟩
  | .local _ .vmem, ⟨15, _⟩ => ⟨S1x1, .f32⟩
  | .local _ .vmem, ⟨16, _⟩ => ⟨S8000x1, .f32⟩
  | .local _ .vmem, ⟨17, _⟩ => ⟨S8000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_c_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x1 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S8000x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  bitsLt_bf16_f32 : FTy.bits .bf16 < FTy.bits .f32
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x128_d1 : Shape.Concatenates [S1000000x64, S1000000x64] S1000000x128 1
  shapeCasts_S64_S1x64 : S64.ShapeCasts S1x64
  shapeCasts_S1_S1x1 : S1.ShapeCasts S1x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  reduces_S8000x64_S8000 : S8000x64.Reduces [1] S8000
  shapeCasts_S8000_S8000x1 : S8000.ShapeCasts S8000x1
  broadcasts_S8000x1_S8000x64 : S8000x1.Broadcasts S8000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  shapeCasts_S1000000x1_S1000000 : S1000000x1.ShapeCasts S1000000
  gather_S100000x64_S1000000x1_S1000000x64_1_0_n_n_0_1_164_wf : GatherDims.WF S100000x64 S1000000x1 S1000000x64 [1] [0] [] [0] [] 1 ![1, 64]
  dot_S8000x128_S128x64_S8000x64_1_0_0_1_n_n_wf : DotDims.WF S8000x128 S128x64 S8000x64 [1] [0] [0] [1] [] []
  dot_S8000x64_S64x64_S8000x64_1_0_0_1_n_n_wf : DotDims.WF S8000x64 S64x64 S8000x64 [1] [0] [0] [1] [] []
  dot_S8000x64_S64x1_S8000x1_1_0_0_1_n_n_wf : DotDims.WF S8000x64 S64x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1000000x128.size a
  hwx0_0 : ∀ i : grid0.Coords, EltTy.bits .bf16 = 32 ∨ (Rect.block (s := S1000000x128) S8000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .bf16 = 32 ∨ (Rect.block (s := S64x64) S64x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x1.size a ≤ S64x1.size a
  hwx0_13 : ∀ i : grid0.Coords, EltTy.bits .bf16 = 32 ∨ (Rect.block (s := S64x1) S64x1.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1.size a ≤ S1x1.size a
  hwx0_14 : ∀ i : grid0.Coords, EltTy.bits .f32 = 32 ∨ (Rect.block (s := S1x1) S1x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S8000x1.size a ≤ S1000000x1.size a
  hwx0_15 : ∀ i : grid0.Coords, EltTy.bits .f32 = 32 ∨ (Rect.block (s := S1000000x1) S8000x1.size (cc0_transform_15 i) (hinb0_15 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x64_S64x1_S8000x1_1_0_0_1_n_n : DotDims S8000x64 S64x1 S8000x1 where
  lhsContracting := [1]
  rhsContracting := [0]
  lhsNonContracting := [0]
  rhsNonContracting := [1]
  lhsBatch := []
  rhsBatch := []
  wf := dot_S8000x64_S64x1_S8000x1_1_0_0_1_n_n_wf

abbrev win0_0 : Pipeline.Window sig grid0 :=
  Pipeline.Window.ofSpec (Memref.whole main_v19) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v30) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v31) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v32) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v23) S64x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v33) S1x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v34) S8000x1.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1000000x128 : Shape := ⟨2, ![1000000, 128]⟩
abbrev S1x64 : Shape := ⟨2, ![1, 64]⟩
abbrev S1x1 : Shape := ⟨2, ![1, 1]⟩

abbrev nBuf : Space → Nat
  | .hbm => 154
  | .vmem => 0
  | .smem => 0
  | _ => 0

abbrev hbmTy0_0 (i : Nat) : BufTy := match i % 128 with
  | 0 => ⟨S100000x64, .f32⟩
  | 1 => ⟨S2x1000000, .i32⟩
  | 2 => ⟨S128x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64x64, .f32⟩
  | 11 => ⟨S64, .f32⟩
  | 12 => ⟨S64, .f32⟩
  | 13 => ⟨S64, .f32⟩
  | 14 => ⟨S64x1, .f32⟩
  | 15 => ⟨S1, .f32⟩
  | 16 => ⟨S1x1000000, .i32⟩
  | 17 => ⟨S1000000, .i32⟩
  | 18 => ⟨S1x1000000, .i32⟩
  | 19 => ⟨S1000000, .i32⟩
  | 20 => ⟨S_, .i32⟩
  | 21 => ⟨S1000000, .i32⟩
  | 22 => ⟨S1000000, .i1⟩
  | 23 => ⟨S_, .i32⟩
  | 24 => ⟨S1000000, .i32⟩
  | 25 => ⟨S1000000, .i32⟩
  | 26 => ⟨S1000000, .i32⟩
  | 27 => ⟨S1000000x1, .i32⟩
  | 28 => ⟨S1000000x64, .f32⟩
  | 29 => ⟨S_, .i32⟩
  | 30 => ⟨S1000000, .i32⟩
  | 31 => ⟨S1000000, .i1⟩
  | 32 => ⟨S_, .i32⟩
  | 33 => ⟨S1000000, .i32⟩
  | 34 => ⟨S1000000, .i32⟩
  | 35 => ⟨S1000000, .i32⟩
  | 36 => ⟨S1000000x1, .i32⟩
  | 37 => ⟨S1000000x64, .f32⟩
  | 38 => ⟨S1000000x128, .f32⟩
  | 39 => ⟨S1000000x64, .f32⟩
  | 40 => ⟨S1x64, .f32⟩
  | 41 => ⟨S1000000x64, .f32⟩
  | 42 => ⟨S1000000x64, .f32⟩
  | 43 => ⟨S_, .f32⟩
  | 44 => ⟨S1000000, .f32⟩
  | 45 => ⟨S1000000x1, .f32⟩
  | 46 => ⟨S_, .f32⟩
  | 47 => ⟨S1000000x1, .f32⟩
  | 48 => ⟨S1000000x1, .f32⟩
  | 49 => ⟨S1000000x64, .f32⟩
  | 50 => ⟨S1000000x64, .f32⟩
  | 51 => ⟨S1000000x64, .f32⟩
  | 52 => ⟨S_, .f32⟩
  | 53 => ⟨S1000000, .f32⟩
  | 54 => ⟨S1000000x1, .f32⟩
  | 55 => ⟨S_, .f32⟩
  | 56 => ⟨S1000000x1, .f32⟩
  | 57 => ⟨S1000000x1, .f32⟩
  | 58 => ⟨S1000000x64, .f32⟩
  | 59 => ⟨S1000000x64, .f32⟩
  | 60 => ⟨S_, .f32⟩
  | 61 => ⟨S1000000x1, .f32⟩
  | 62 => ⟨S1000000x1, .f32⟩
  | 63 => ⟨S1000000x1, .f32⟩
  | 64 => ⟨S1000000x64, .f32⟩
  | 65 => ⟨S1000000x64, .f32⟩
  | 66 => ⟨S1x64, .f32⟩
  | 67 => ⟨S1000000x64, .f32⟩
  | 68 => ⟨S1000000x64, .f32⟩
  | 69 => ⟨S1x64, .f32⟩
  | 70 => ⟨S1000000x64, .f32⟩
  | 71 => ⟨S1000000x64, .f32⟩
  | 72 => ⟨S1000000x64, .f32⟩
  | 73 => ⟨S1000000x64, .f32⟩
  | 74 => ⟨S1x64, .f32⟩
  | 75 => ⟨S1000000x64, .f32⟩
  | 76 => ⟨S1000000x64, .f32⟩
  | 77 => ⟨S_, .f32⟩
  | 78 => ⟨S1000000, .f32⟩
  | 79 => ⟨S1000000x1, .f32⟩
  | 80 => ⟨S_, .f32⟩
  | 81 => ⟨S1000000x1, .f32⟩
  | 82 => ⟨S1000000x1, .f32⟩
  | 83 => ⟨S1000000x64, .f32⟩
  | 84 => ⟨S1000000x64, .f32⟩
  | 85 => ⟨S1000000x64, .f32⟩
  | 86 => ⟨S_, .f32⟩
  | 87 => ⟨S1000000, .f32⟩
  | 88 => ⟨S1000000x1, .f32⟩
  | 89 => ⟨S_, .f32⟩
  | 90 => ⟨S1000000x1, .f32⟩
  | 91 => ⟨S1000000x1, .f32⟩
  | 92 => ⟨S1000000x64, .f32⟩
  | 93 => ⟨S1000000x64, .f32⟩
  | 94 => ⟨S_, .f32⟩
  | 95 => ⟨S1000000x1, .f32⟩
  | 96 => ⟨S1000000x1, .f32⟩
  | 97 => ⟨S1000000x1, .f32⟩
  | 98 => ⟨S1000000x64, .f32⟩
  | 99 => ⟨S1000000x64, .f32⟩
  | 100 => ⟨S1x64, .f32⟩
  | 101 => ⟨S1000000x64, .f32⟩
  | 102 => ⟨S1000000x64, .f32⟩
  | 103 => ⟨S1x64, .f32⟩
  | 104 => ⟨S1000000x64, .f32⟩
  | 105 => ⟨S1000000x64, .f32⟩
  | 106 => ⟨S1000000x64, .f32⟩
  | 107 => ⟨S1000000x64, .f32⟩
  | 108 => ⟨S1x64, .f32⟩
  | 109 => ⟨S1000000x64, .f32⟩
  | 110 => ⟨S1000000x64, .f32⟩
  | 111 => ⟨S_, .f32⟩
  | 112 => ⟨S1000000, .f32⟩
  | 113 => ⟨S1000000x1, .f32⟩
  | 114 => ⟨S_, .f32⟩
  | 115 => ⟨S1000000x1, .f32⟩
  | 116 => ⟨S1000000x1, .f32⟩
  | 117 => ⟨S1000000x64, .f32⟩
  | 118 => ⟨S1000000x64, .f32⟩
  | 119 => ⟨S1000000x64, .f32⟩
  | 120 => ⟨S_, .f32⟩
  | 121 => ⟨S1000000, .f32⟩
  | 122 => ⟨S1000000x1, .f32⟩
  | 123 => ⟨S_, .f32⟩
  | 124 => ⟨S1000000x1, .f32⟩
  | 125 => ⟨S1000000x1, .f32⟩
  | 126 => ⟨S1000000x64, .f32⟩
  | 127 => ⟨S1000000x64, .f32⟩
  | _ => ⟨S100000x64, .f32⟩

abbrev hbmTy0_1 (i : Nat) : BufTy := match i % 128 with
  | 0 => ⟨S_, .f32⟩
  | 1 => ⟨S1000000x1, .f32⟩
  | 2 => ⟨S1000000x1, .f32⟩
  | 3 => ⟨S1000000x1, .f32⟩
  | 4 => ⟨S1000000x64, .f32⟩
  | 5 => ⟨S1000000x64, .f32⟩
  | 6 => ⟨S1x64, .f32⟩
  | 7 => ⟨S1000000x64, .f32⟩
  | 8 => ⟨S1000000x64, .f32⟩
  | 9 => ⟨S1x64, .f32⟩
  | 10 => ⟨S1000000x64, .f32⟩
  | 11 => ⟨S1000000x64, .f32⟩
  | 12 => ⟨S1000000x64, .f32⟩
  | 13 => ⟨S1000000x1, .f32⟩
  | 14 => ⟨S1x1, .f32⟩
  | 15 => ⟨S1000000x1, .f32⟩
  | 16 => ⟨S1000000x1, .f32⟩
  | 17 => ⟨S1000000x1, .f32⟩
  | 18 => ⟨S1000000x1, .f32⟩
  | 19 => ⟨S_, .f32⟩
  | 20 => ⟨S1000000x1, .f32⟩
  | 21 => ⟨S1000000x1, .f32⟩
  | 22 => ⟨S_, .f32⟩
  | 23 => ⟨S1000000x1, .f32⟩
  | 24 => ⟨S1000000x1, .f32⟩
  | 25 => ⟨S1000000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_7 : Ref sig .tc := ⟨.hbm, 77, rfl⟩
abbrev main_v52 : Ref sig .tc := ⟨.hbm, 78, rfl⟩
abbrev main_v53 : Ref sig .tc := ⟨.hbm, 79, rfl⟩
abbrev main_cst_8 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_9 : Ref sig .tc := ⟨.hbm, 86, rfl⟩
abbrev main_v59 : Ref sig .tc := ⟨.hbm, 87, rfl⟩
abbrev main_v60 : Ref sig .tc := ⟨.hbm, 88, rfl⟩
abbrev main_cst_10 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_11 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_12 : Ref sig .tc := ⟨.hbm, 111, rfl⟩
abbrev main_v81 : Ref sig .tc := ⟨.hbm, 112, rfl⟩
abbrev main_v82 : Ref sig .tc := ⟨.hbm, 113, rfl⟩
abbrev main_cst_13 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_14 : Ref sig .tc := ⟨.hbm, 120, rfl⟩
abbrev main_v88 : Ref sig .tc := ⟨.hbm, 121, rfl⟩
abbrev main_v89 : Ref sig .tc := ⟨.hbm, 122, rfl⟩
abbrev main_cst_15 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_16 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_cst_17 : Ref sig .tc := ⟨.hbm, 147, rfl⟩
abbrev main_v112 : Ref sig .tc := ⟨.hbm, 148, rfl⟩
abbrev main_v113 : Ref sig .tc := ⟨.hbm, 149, rfl⟩
abbrev main_cst_18 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x128_d1 : Shape.Concatenates [S1000000x64, S1000000x64] S1000000x128 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  reducesTo_S1000000x64_S1000000_d1 : S1000000x64.ReducesTo [1] S1000000
  h_S_ : 0 < S_.numel
  bcast_S_S1000000x1 : S_.BroadcastsInDim S1000000x1 (![] : Fin 0 → Fin S1000000x1.rank)
  bcast_S1000000x1_S1000000x64_0_1 : S1000000x1.BroadcastsInDim S1000000x64 (![0, 1] : Fin 2 → Fin S1000000x64.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1000000 : S1000000x1.ShapeCasts S1000000
  gather_S100000x64_S1000000x1_S1000000x64_1_0_n_n_0_1_164_wf : GatherDims.WF S100000x64 S1000000x1 S1000000x64 [1] [0] [] [0] [] 1 ![1, 64]
  dot_S1000000x128_S128x64_S1000000x64_1_0_0_1_n_n_wf : DotDims.WF S1000000x128 S128x64 S1000000x64 [1] [0] [0] [1] [] []
  dot_S1000000x64_S64x64_S1000000x64_1_0_0_1_n_n_wf : DotDims.WF S1000000x64 S64x64 S1000000x64 [1] [0] [0] [1] [] []
  dot_S1000000x64_S64x1_S1000000x1_1_0_0_1_n_n_wf : DotDims.WF S1000000x64 S64x1 S1000000x1 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf

class Facts : Prop extends Facts₀ where

variable [Facts]
-- ==== Proof.LibRows.lean ====
/-
  Row-by-row readings of two-axis arrays, for any sizes.

  A dense layer with a per-row normalisation touches an `n × b` array one row at a time: a product with a weight
  matrix (entry `(p, c)` is the sum over `q` of row `p` at `q` times the weight at `(q, c)`), a sum along each row,
  a per-row number broadcast back along its row, a per-column vector broadcast down the rows. Each lemma below reads
  one of these operations at an entry `(p, c)`, in the kernel's spelling (matmul into a zero accumulator, a lane
  reduction, vector broadcasts) and in the host's (a reduce with an initial value, broadcast-in-dim).
-/
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

noncomputable section

namespace Cert.Lib.Rows

open Idealize.ShloMosaic Idealize.ShloMosaic.ValueIdx

variable {α : Type}

/-! ## Products -/

/-- An `m × k` by `k × n` matrix product accumulated into zero reads, at `(a, b)`, the sum over the contracted
    coordinate of the products of the entries: the same sum the host's product of the two matrices is. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

/-! ## Sums along a row -/

/-- The index of an `n × k` array over row `a` with the column `c` put back. -/
theorem lift_row {n k : ℕ} (h : (⟨2, ![n, k]⟩ : Shape).Reduces [1] ⟨1, ![n]⟩) (a : Fin n) (c : Fin k) :
    h.lift (ix1 a) c = ix2 a c := by
  funext ax; apply Fin.ext
  match ax with
  | ⟨0, _⟩ => rfl
  | ⟨1, _⟩ => rfl

/-- A lane reduction of an `n × k` array along its rows reads, at row `a`, the sum of that row. -/
theorem rowSum_apply {n k : ℕ} {φ : FTy} (src : FVec Ideal ⟨2, ![n, k]⟩ φ) (acc : BitVec φ.bits)
    (h : (⟨2, ![n, k]⟩ : Shape).Reduces [1] ⟨1, ![n]⟩) (hφ : FKind.Formats φ) (hacc : acc = FKind.add.neutral φ hφ) (a : Fin n) :
    multiReduction .add [1] ⟨1, ![n]⟩ src acc h hφ hacc (ix1 a) = ∑ c : Fin k, src (ix2 a c) := by
  rw [Ideal.multiReduction_add_single]
  exact Finset.sum_congr rfl fun c _ => congrArg src (lift_row h a c)

/-- The same for an f32 lane sum from the zero word, with the accumulator's side condition spelt as a program prints it
    (the word equal to itself). -/
theorem rowSum_f32_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = 0x00000000#32) (a : Fin n) :
    multiReduction .add [1] ⟨1, ![n]⟩ src 0x00000000#32 h hφ hacc (ix1 a) = ∑ c : Fin k, src (ix2 a c) :=
  rowSum_apply src 0x00000000#32 h hφ hacc a

/-- The exact row sums themselves (what a lane sum denotes on the extended reals), read at row `a`. -/
theorem reduceAdd_rows_apply {n k : ℕ} (x : (⟨2, ![n, k]⟩ : Shape).Idx → EReal)
    (h : (⟨2, ![n, k]⟩ : Shape).Reduces [1] ⟨1, ![n]⟩) (a : Fin n) :
    Ideal.reduceAdd h x (ix1 a) = ∑ c : Fin k, x (ix2 a c) := by
  rw [Ideal.reduceAdd_single]
  exact Finset.sum_congr rfl fun c _ => congrArg x (lift_row h a c)

/-- The host's exact row sums from an initial value, read at row `a`. -/
theorem hostReduceAdd_rows_apply {n k : ℕ} (x : (⟨2, ![n, k]⟩ : Shape).Idx → EReal) (init : EReal)
    (h' : (⟨2, ![n, k]⟩ : Shape).ReducesTo [1] ⟨1, ![n]⟩)
    (h : (⟨2, ![n, k]⟩ : Shape).Reduces [1] ⟨1, ![n]⟩) (a : Fin n) :
    Ideal.hostReduceAdd h' x init (ix1 a) = init + ∑ c : Fin k, x (ix2 a c) := by
  rw [Ideal.hostReduceAdd_single h' h]
  exact congrArg (init + ·) (Finset.sum_congr rfl fun c _ => congrArg x (lift_row h a c))

/-- The host's sum of an `n × k` array along its rows reads, at row `a`, the initial value plus the sum of that row. -/
theorem hostRowSum_apply {n k : ℕ} {φ : FTy} {u : Shape} (x : FVec Ideal ⟨2, ![n, k]⟩ φ) (init : u.Idx → Ideal φ)
    (h' : (⟨2, ![n, k]⟩ : Shape).ReducesTo [1] ⟨1, ![n]⟩) (hu : 0 < u.numel)
    (h : (⟨2, ![n, k]⟩ : Shape).Reduces [1] ⟨1, ![n]⟩) (a : Fin n) :
    Host.reduceAdd x init h' hu (ix1 a) = init (Shape.Idx.first hu) + ∑ c : Fin k, x (ix2 a c) := by
  show Ideal.hostReduceAdd h' x (init (Shape.Idx.first hu)) (ix1 a) = _
  rw [Ideal.hostReduceAdd_single h' h]
  exact congrArg (init (Shape.Idx.first hu) + ·) (Finset.sum_congr rfl fun c _ => congrArg x (lift_row h a c))

/-! ## A per-row number broadcast along its row -/

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's spelling of the same: an `a × 1` column broadcast in place (axes kept) to `a × b`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-! ## A per-column vector broadcast down the rows -/

/-- The host's spelling of one row over many: a `1 × b` row broadcast in place to `a × b` reads, at `(p, c)`, the row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A length-`b` vector made a `1 × b` row by a broadcast along a new leading axis reads, at `(u, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A scalar broadcast to any shape reads the scalar everywhere. -/
theorem broadcastInDim_scalar_apply {t : Shape} (v : (⟨0, ![]⟩ : Shape).Idx → α) (dims : Fin 0 → Fin t.rank)
    (h : (⟨0, ![]⟩ : Shape).BroadcastsInDim t dims) (j : t.Idx) :
    broadcastInDim t dims h v j = v ix0 :=
  broadcastInDim_apply dims h v j ix0 fun ax => ax.elim0

end Cert.Lib.Rows

end
-- ==== Proof.LibColumnStack.lean ====
/-
  Layout facts about COLUMNS, for any element type and any sizes.

  A length-`n` array made into an `n × 1` column — by a reshape, or by a broadcast along a new unit axis — keeps
  entry `r` at `(r, 0)`; and an `n × K` array assembled by joining `K` such columns side by side (a concatenation
  along the second axis) holds, in column `k`, the `k`-th of them. Together they read "stack K vectors as the columns
  of a matrix" at an index, whichever way a program spells the stack: entry `(r, k)` is the `k`-th vector at `r`.
-/
import Idealize.ShloMosaic.Lib.Pipeline.Value
import Idealize.ShloMosaic.Lib.ValueIdx

noncomputable section

namespace Cert.Lib.ColumnStack

open Idealize.ShloMosaic Idealize.ShloMosaic.ValueIdx

variable {α : Type}

/-- The row an index of an `n × K` array lies in, as an index of a length-`n` array. -/
abbrev rowOf {n K : ℕ} (j : (⟨2, ![n, K]⟩ : Shape).Idx) : (⟨1, ![n]⟩ : Shape).Idx := ix1 ⟨(j 0).val, idx2_lt0 j⟩
/-- The column an index of an `n × K` array lies in. -/
abbrev colOf {n K : ℕ} (j : (⟨2, ![n, K]⟩ : Shape).Idx) : Fin K := ⟨(j 1).val, idx2_lt1 j⟩

/-- The `q`-th of sixteen things. -/
def nth16 {β : Type} (c0 c1 c2 c3 c4 c5 c6 c7 c8 c9 c10 c11 c12 c13 c14 c15 : β) (q : Fin 16) : β :=
  match q with
  | ⟨0, _⟩ => c0 | ⟨1, _⟩ => c1 | ⟨2, _⟩ => c2 | ⟨3, _⟩ => c3
  | ⟨4, _⟩ => c4 | ⟨5, _⟩ => c5 | ⟨6, _⟩ => c6 | ⟨7, _⟩ => c7
  | ⟨8, _⟩ => c8 | ⟨9, _⟩ => c9 | ⟨10, _⟩ => c10 | ⟨11, _⟩ => c11
  | ⟨12, _⟩ => c12 | ⟨13, _⟩ => c13 | ⟨14, _⟩ => c14 | ⟨15, _⟩ => c15
  | ⟨n + 16, h⟩ => absurd h (by omega)

/-- A length-`n` array RESHAPED to an `n × 1` column reads, at an index `j`, the array at `j`'s row: in row-major
    order entry `(r, 0)` of the column and entry `r` of the array are both the `r`-th. -/
theorem shapeCast_column_apply {n : ℕ} (x : (⟨1, ![n]⟩ : Shape).Idx → α)
    (h : (⟨1, ![n]⟩ : Shape).ShapeCasts ⟨2, ![n, 1]⟩) (j : (⟨2, ![n, 1]⟩ : Shape).Idx) :
    shapeCast ⟨2, ![n, 1]⟩ x h j = x (rowOf j) :=
  shapeCast_apply x h j _ (by
    have h1 : (j 1).val < 1 := idx2_lt1 j
    rw [Shape.rowMajor_val_two, Shape.rowMajor_val_one]
    show (j 0).val = (j 0).val * 1 + (j 1).val
    omega)

/-- A length-`n` array BROADCAST to an `n × 1` column (its one axis sent to the first axis of the result) reads, at
    an index `j`, the array at `j`'s row. -/
theorem broadcastInDim_column_apply {n : ℕ} (x : (⟨1, ![n]⟩ : Shape).Idx → α) (dims : Fin 1 → Fin 2) (hd : dims 0 = 0)
    (h : (⟨1, ![n]⟩ : Shape).BroadcastsInDim ⟨2, ![n, 1]⟩ dims) (j : (⟨2, ![n, 1]⟩ : Shape).Idx) :
    broadcastInDim ⟨2, ![n, 1]⟩ dims h x j = x (rowOf j) :=
  broadcastInDim_apply dims h x j _ (fun a => by
    match a with
    | ⟨0, _⟩ =>
      show (j 0).val = if n = 1 then 0 else (j (dims 0)).val
      rw [hd]
      split
      · have := idx2_lt0 j; omega
      · rfl)

/-- COLUMNS SIDE BY SIDE: `K` columns of height `n` (column `k` is `f k`) joined along the second axis into an
    `n × K` array; entry `j` of the array is column `colOf j` at `j`'s row. -/
theorem concatenate_columns_apply {n K : ℕ} (f : Fin K → ((⟨2, ![n, 1]⟩ : Shape).Idx → α))
    (h : Shape.Concatenates ((List.ofFn fun k : Fin K =>
        (⟨⟨2, ![n, 1]⟩, f k⟩ : (s : Shape) × (s.Idx → α))).map (·.1)) ⟨2, ![n, K]⟩ 1)
    (j : (⟨2, ![n, K]⟩ : Shape).Idx) :
    concatenate ⟨2, ![n, K]⟩ 1 (List.ofFn fun k : Fin K => (⟨⟨2, ![n, 1]⟩, f k⟩ : (s : Shape) × (s.Idx → α))) h j
      = f (colOf j) (ix2 ⟨(j 0).val, idx2_lt0 j⟩ (0 : Fin 1)) :=
  concatenate_ofFn_unit_apply (t := ⟨2, ![n, K]⟩) (s₁ := ⟨2, ![n, 1]⟩) (1 : Fin 2) f h rfl rfl j (colOf j) rfl
    (ix2 ⟨(j 0).val, idx2_lt0 j⟩ (0 : Fin 1))
    (fun b hb => by
      match b with
      | ⟨0, _⟩ => rfl
      | ⟨1, _⟩ => exact absurd rfl hb)

end Cert.Lib.ColumnStack

end
-- ==== Proof.Spec.lean ====
/-
  The network one edge at a time.

  The program scores each edge from the 128 numbers `e` gathered for it: three times over, an affine map followed
  by a normalisation of the 64 results to mean zero and unit variance (with a small constant under the root), a
  scale and shift per coordinate, and a hyperbolic tangent; then a last affine map to one number and the logistic
  function. Everything here is on the extended reals, each operation the exact one.
-/
import Idealize.ShloMosaic.PureOps.Ideal
import Idealize.ShloMosaic.Lib.ValueIdx

noncomputable section

namespace Cert.Spec

open Idealize.ShloMosaic Idealize.ShloMosaic.ValueIdx

/-- An affine map: `h ↦ h · W + b`, coordinate `j`. -/
def dense {K N : ℕ} (h : Fin K → EReal) (W : Fin K → Fin N → EReal) (b : Fin N → EReal) (j : Fin N) : EReal :=
  (∑ k : Fin K, h k * W k j) + b j

/-- The mean of 64 numbers: their sum divided by 64. -/
def mean (h : Fin 64 → EReal) : EReal := Ideal.div (∑ q : Fin 64, h q) (Ideal.ofBits .f32 0x42800000#32)

/-- Normalise (subtract the mean, divide by the root of the variance plus a small constant), scale by `g`, shift by
    `bt`, and take the hyperbolic tangent: coordinate `j`. -/
def lnAct (h g bt : Fin 64 → EReal) (j : Fin 64) : EReal :=
  Ideal.tanh ((h j - mean h)
    * Ideal.rsqrt (mean (fun q => (h q - mean h) * (h q - mean h)) + Ideal.ofBits .f32 0x3727C5AC#32) * g j + bt j)

/-- One edge's score. -/
def rowOut (e : Fin 128 → EReal) (W1 : Fin 128 → Fin 64 → EReal) (b1 g1 bt1 : Fin 64 → EReal)
    (W2 : Fin 64 → Fin 64 → EReal) (b2 g2 bt2 : Fin 64 → EReal)
    (W3 : Fin 64 → Fin 64 → EReal) (b3 g3 bt3 : Fin 64 → EReal)
    (W4 : Fin 64 → Fin 1 → EReal) (b4 : Fin 1 → EReal) : EReal :=
  Ideal.logistic (dense (lnAct (dense (lnAct (dense (lnAct (dense e W1 b1) g1 bt1) W2 b2) g2 bt2) W3 b3) g3 bt3) W4 b4 0)

/-- Every edge's score, as a column: row `r` is the score of row `r` of the gathered array `e`, under the weights
    read off their arrays. -/
def outCol (e : (⟨2, ![1000000, 128]⟩ : Shape).Idx → EReal)
    (W1 : (⟨2, ![128, 64]⟩ : Shape).Idx → EReal) (b1 g1 bt1 : (⟨1, ![64]⟩ : Shape).Idx → EReal)
    (W2 : (⟨2, ![64, 64]⟩ : Shape).Idx → EReal) (b2 g2 bt2 : (⟨1, ![64]⟩ : Shape).Idx → EReal)
    (W3 : (⟨2, ![64, 64]⟩ : Shape).Idx → EReal) (b3 g3 bt3 : (⟨1, ![64]⟩ : Shape).Idx → EReal)
    (W4 : (⟨2, ![64, 1]⟩ : Shape).Idx → EReal) (b4 : (⟨1, ![1]⟩ : Shape).Idx → EReal) :
    (⟨2, ![1000000, 1]⟩ : Shape).Idx → EReal := fun i =>
  rowOut (fun k => e (ix2 (⟨(i 0).val, idx2_lt0 i⟩ : Fin 1000000) k))
    (fun k c => W1 (ix2 k c)) (fun c => b1 (ix1 c)) (fun c => g1 (ix1 c)) (fun c => bt1 (ix1 c))
    (fun k c => W2 (ix2 k c)) (fun c => b2 (ix1 c)) (fun c => g2 (ix1 c)) (fun c => bt2 (ix1 c))
    (fun k c => W3 (ix2 k c)) (fun c => b3 (ix1 c)) (fun c => g3 (ix1 c)) (fun c => bt3 (ix1 c))
    (fun k c => W4 (ix2 k c)) (fun c => b4 (ix1 c))

end Cert.Spec

end
-- ==== Proof.KernelRow.lean ====
/-
  The kernel's arithmetic on one block, read one row at a time.

  The body's value is a composition of four pure terms of the loaded blocks. Row `p` of each depends only on row `p`
  of the block of gathered inputs (and on the whole weight blocks): the matrix products sum along a row, the lane
  sums are along a row, and every broadcast puts a row's number back on that row. So row `p` of the stored block is
  the per-edge score of row `p`.
-/
import proofs.«109361_j59528246723026_2_alg».proof.Proof.Gen.KernelIdeal.Skeleton
import proofs.«109361_j59528246723026_2_alg».proof.Proof.LibRows
import proofs.«109361_j59528246723026_2_alg».proof.Proof.LibColumnStack
import proofs.«109361_j59528246723026_2_alg».proof.Proof.Spec

noncomputable section

namespace Cert.KernelIdeal.Row

open Idealize.ShloMosaic Idealize.ShloMosaic.ValueIdx Cert.KernelIdeal Cert.KernelIdeal.Gen Cert.Lib.Rows Cert.Lib.ColumnStack

/-- The three products' dimension records are the plain matrix product's. -/
theorem dot1_eq : dot_S8000x128_S128x64_S8000x64_1_0_0_1_n_n = DotDims.plain 8000 128 64 := rfl
theorem dot2_eq : dot_S8000x64_S64x64_S8000x64_1_0_0_1_n_n = DotDims.plain 8000 64 64 := rfl
theorem dot3_eq : dot_S8000x64_S64x1_S8000x1_1_0_0_1_n_n = DotDims.plain 8000 64 1 := rfl

/-- The row of a column's index. -/
theorem rowOf_ix2 {n K : ℕ} (p : Fin n) (u : Fin K) : rowOf (ix2 p u) = ix1 p := rfl

/-- The body's normalise–scale–shift–tanh of an 8000 × 64 block `h`, as the body spells it: the row means by a lane sum
    divided by 64, the centred block, its squares' row means, the reciprocal root, the two row vectors broadcast down. -/
def kLN (h : FVec Ideal S8000x64 .f32) (g bt : FVec Ideal S1x64 .f32) : FVec Ideal S8000x64 .f32 :=
  have mu : FVec Ideal S8000x1 .f32 := divf (shapeCast S8000x1 (Ideal.reduceAdd reduces_S8000x64_S8000 h) shapeCasts_S8000_S8000x1) (broadcast S8000x1 (Scalar.ofBits .f32 0x42800000#32))
  have d : FVec Ideal S8000x64 .f32 := subf h (broadcastTo S8000x64 mu broadcasts_S8000x1_S8000x64)
  have var : FVec Ideal S8000x1 .f32 := divf (shapeCast S8000x1 (Ideal.reduceAdd reduces_S8000x64_S8000 (mulf d d)) shapeCasts_S8000_S8000x1) (broadcast S8000x1 (Scalar.ofBits .f32 0x42800000#32))
  tanh (addf (mulf (mulf d (broadcastTo S8000x64 (rsqrt (addf var (broadcast S8000x1 (Scalar.ofBits .f32 0x3727C5AC#32)))) broadcasts_S8000x1_S8000x64)) (broadcastTo S8000x64 g broadcasts_S1x64_S8000x64)) (broadcastTo S8000x64 bt broadcasts_S1x64_S8000x64))

/-- Row `p` of the normalised block is the normalisation of row `p`. -/
theorem kLN_apply (h : FVec Ideal S8000x64 .f32) (g bt : FVec Ideal S1x64 .f32) (p : Fin 8000) (j : Fin 64) :
    kLN h g bt (ix2 p j)
      = Spec.lnAct (fun q => h (ix2 p q)) (fun q => g (ix2 (0 : Fin 1) q)) (fun q => bt (ix2 (0 : Fin 1) q)) j := by
  unfold kLN
  simp only [tanh, rsqrt, addf_apply, mulf_apply, subf_apply, divf_apply, broadcast_apply, broadcastTo_a1_ab_apply,
    broadcastTo_1b_ab_apply, shapeCast_column_apply, rowOf_ix2, reduceAdd_rows_apply]
  rfl

/-! ## The four pure terms, each as layers -/

/-- The first term: the first affine map of the input block, its normalisation and tanh, and the product with the second
    weight block. -/
theorem pay2_eq (x0 : Vec Ideal S8000x128 .bf16) (x1 : Vec Ideal S128x64 .bf16) (x2 x3 x4 : Vec Ideal S1x64 .f32)
    (x5 : Vec Ideal S64x64 .bf16) :
    k0_pay2 (F := Ideal) x0 x1 x2 x3 x4 x5
      = matmul dot_S8000x64_S64x64_S8000x64_1_0_0_1_n_n none
          (truncf .bf16 (kLN (addf (matmul dot_S8000x128_S128x64_S8000x64_1_0_0_1_n_n none
              (shapeCast S8000x128 x0 shapeCasts_S8000x128_S8000x128 : FVec Ideal S8000x128 .bf16) (shapeCast S128x64 x1 shapeCasts_S128x64_S128x64 : FVec Ideal S128x64 .bf16)
              (constant S8000x64 .f32 0x00000000#32))
            (broadcastTo S8000x64 (shapeCast S1x64 x2 shapeCasts_S1x64_S1x64 : FVec Ideal S1x64 .f32) broadcasts_S1x64_S8000x64))
            (shapeCast S1x64 x3 shapeCasts_S1x64_S1x64 : FVec Ideal S1x64 .f32) (shapeCast S1x64 x4 shapeCasts_S1x64_S1x64 : FVec Ideal S1x64 .f32)) bitsLt_bf16_f32)
          (shapeCast S64x64 x5 shapeCasts_S64x64_S64x64 : FVec Ideal S64x64 .bf16) (constant S8000x64 .f32 0x00000000#32) := rfl

/-- Row `p` of the first term: the first layer of row `p`, times the second weights. -/
theorem pay2_row (x0 : Vec Ideal S8000x128 .bf16) (x1 : Vec Ideal S128x64 .bf16) (x2 x3 x4 : Vec Ideal S1x64 .f32)
    (x5 : Vec Ideal S64x64 .bf16) (p : Fin 8000) (j : Fin 64) :
    k0_pay2 (F := Ideal) x0 x1 x2 x3 x4 x5 (ix2 p j)
      = ∑ q : Fin 64, Spec.lnAct (Spec.dense (fun k => x0 (ix2 p k)) (fun k c => x1 (ix2 k c)) (fun c => x2 (ix2 (0 : Fin 1) c)))
          (fun c => x3 (ix2 (0 : Fin 1) c)) (fun c => x4 (ix2 (0 : Fin 1) c)) q * x5 (ix2 q j) := by
  rw [pay2_eq]
  simp only [dot1_eq, dot2_eq, matmul_plain_zero_apply, truncf_apply, kLN_apply, addf_apply, broadcastTo_1b_ab_apply,
    shapeCast_self]
  rfl

/-- The second term: the second bias, normalisation and tanh, and the third affine map. -/
theorem pay3_eq (v39 : FVec Ideal S8000x64 .f32) (x6 x7 x8 : Vec Ideal S1x64 .f32) (x9 : Vec Ideal S64x64 .bf16)
    (x10 : Vec Ideal S1x64 .f32) :
    k0_pay3 (F := Ideal) v39 x6 x7 x8 x9 x10
      = addf (matmul dot_S8000x64_S64x64_S8000x64_1_0_0_1_n_n none
          (truncf .bf16 (kLN (addf v39 (broadcastTo S8000x64 (shapeCast S1x64 x6 shapeCasts_S1x64_S1x64 : FVec Ideal S1x64 .f32) broadcasts_S1x64_S8000x64))
            (shapeCast S1x64 x7 shapeCasts_S1x64_S1x64 : FVec Ideal S1x64 .f32) (shapeCast S1x64 x8 shapeCasts_S1x64_S1x64 : FVec Ideal S1x64 .f32)) bitsLt_bf16_f32)
          (shapeCast S64x64 x9 shapeCasts_S64x64_S64x64 : FVec Ideal S64x64 .bf16) (constant S8000x64 .f32 0x00000000#32))
        (broadcastTo S8000x64 (shapeCast S1x64 x10 shapeCasts_S1x64_S1x64 : FVec Ideal S1x64 .f32) broadcasts_S1x64_S8000x64) := rfl

theorem pay3_row (v39 : FVec Ideal S8000x64 .f32) (x6 x7 x8 : Vec Ideal S1x64 .f32) (x9 : Vec Ideal S64x64 .bf16)
    (x10 : Vec Ideal S1x64 .f32) (p : Fin 8000) (j : Fin 64) :
    k0_pay3 (F := Ideal) v39 x6 x7 x8 x9 x10 (ix2 p j)
      = Spec.dense (Spec.lnAct (fun q => v39 (ix2 p q) + x6 (ix2 (0 : Fin 1) q)) (fun c => x7 (ix2 (0 : Fin 1) c))
          (fun c => x8 (ix2 (0 : Fin 1) c))) (fun k c => x9 (ix2 k c)) (fun c => x10 (ix2 (0 : Fin 1) c)) j := by
  rw [pay3_eq]
  simp only [dot2_eq, matmul_plain_zero_apply, truncf_apply, kLN_apply, addf_apply, broadcastTo_1b_ab_apply, shapeCast_self]
  rfl

/-- The scale vector of the third normalisation is loaded as it is. -/
theorem pay4_eq (x11 : Vec Ideal S1x64 .f32) : k0_pay4 (F := Ideal) x11 = (shapeCast S1x64 x11 shapeCasts_S1x64_S1x64 : FVec Ideal S1x64 .f32) := rfl

/-- The last term: the third normalisation and tanh, the affine map to one number, the logistic function. -/
theorem pay1_eq (v78 : FVec Ideal S8000x64 .f32) (v80 : FVec Ideal S1x64 .f32) (x12 : Vec Ideal S1x64 .f32)
    (x13 : Vec Ideal S64x1 .bf16) (x14 : Vec Ideal S1x1 .f32) :
    k0_pay1 (F := Ideal) v78 v80 x12 x13 x14
      = logistic (addf (matmul dot_S8000x64_S64x1_S8000x1_1_0_0_1_n_n none
          (truncf .bf16 (kLN v78 v80 (shapeCast S1x64 x12 shapeCasts_S1x64_S1x64 : FVec Ideal S1x64 .f32)) bitsLt_bf16_f32)
          (shapeCast S64x1 x13 shapeCasts_S64x1_S64x1 : FVec Ideal S64x1 .bf16) (constant S8000x1 .f32 0x00000000#32))
        (broadcastTo S8000x1 (shapeCast S1x1 x14 shapeCasts_S1x1_S1x1 : FVec Ideal S1x1 .f32) broadcasts_S1x1_S8000x1)) := rfl

theorem pay1_row (v78 : FVec Ideal S8000x64 .f32) (v80 : FVec Ideal S1x64 .f32) (x12 : Vec Ideal S1x64 .f32)
    (x13 : Vec Ideal S64x1 .bf16) (x14 : Vec Ideal S1x1 .f32) (p : Fin 8000) :
    k0_pay1 (F := Ideal) v78 v80 x12 x13 x14 (ix2 p (0 : Fin 1))
      = Ideal.logistic (Spec.dense (Spec.lnAct (fun q => v78 (ix2 p q)) (fun c => v80 (ix2 (0 : Fin 1) c))
          (fun c => x12 (ix2 (0 : Fin 1) c))) (fun k c => x13 (ix2 k c)) (fun c => x14 (ix2 (0 : Fin 1) c)) 0) := by
  rw [pay1_eq]
  simp only [logistic, dot3_eq, matmul_plain_zero_apply, truncf_apply, kLN_apply, addf_apply, broadcastTo_1b_ab_apply,
    shapeCast_self]
  rfl

/-- ROW `p` OF THE STORED BLOCK is the score of row `p` of the input block under the loaded weight blocks. -/
theorem pay_row (x0 : Vec Ideal S8000x128 .bf16) (x1 : Vec Ideal S128x64 .bf16) (x2 x3 x4 : Vec Ideal S1x64 .f32)
    (x5 : Vec Ideal S64x64 .bf16) (x6 x7 x8 : Vec Ideal S1x64 .f32) (x9 : Vec Ideal S64x64 .bf16)
    (x10 x11 x12 : Vec Ideal S1x64 .f32) (x13 : Vec Ideal S64x1 .bf16) (x14 : Vec Ideal S1x1 .f32) (p : Fin 8000) :
    k0_pay1 (F := Ideal) (k0_pay3 (k0_pay2 x0 x1 x2 x3 x4 x5) x6 x7 x8 x9 x10) (k0_pay4 x11) x12 x13 x14 (ix2 p (0 : Fin 1))
      = Spec.rowOut (fun k => x0 (ix2 p k))
          (fun k c => x1 (ix2 k c)) (fun c => x2 (ix2 (0 : Fin 1) c)) (fun c => x3 (ix2 (0 : Fin 1) c)) (fun c => x4 (ix2 (0 : Fin 1) c))
          (fun k c => x5 (ix2 k c)) (fun c => x6 (ix2 (0 : Fin 1) c)) (fun c => x7 (ix2 (0 : Fin 1) c)) (fun c => x8 (ix2 (0 : Fin 1) c))
          (fun k c => x9 (ix2 k c)) (fun c => x10 (ix2 (0 : Fin 1) c)) (fun c => x11 (ix2 (0 : Fin 1) c)) (fun c => x12 (ix2 (0 : Fin 1) c))
          (fun k c => x13 (ix2 k c)) (fun c => x14 (ix2 (0 : Fin 1) c)) := by
  rw [pay1_row]
  simp only [pay3_row, pay2_row, pay4_eq, shapeCast_self]
  rfl

end Cert.KernelIdeal.Row

end
-- ==== Proof.RefRow.lean ====
/-
  The reference's arithmetic, read one row at a time.

  The reference computes on all 1000000 rows at once, but row `r` of every stage depends only on row `r` of the
  gathered array: its matrix products sum along a row, its reductions are along a row, and its broadcasts put a row's
  number back on that row or copy a weight vector down the rows. So row `r` of its last column is the per-edge score
  of row `r`.
-/
import proofs.«109361_j59528246723026_2_alg».proof.Proof.Gen.ReferenceIdeal.Run
import proofs.«109361_j59528246723026_2_alg».proof.Proof.LibRows
import proofs.«109361_j59528246723026_2_alg».proof.Proof.LibColumnStack
import proofs.«109361_j59528246723026_2_alg».proof.Proof.Spec

noncomputable section

namespace Cert.ReferenceIdeal.Row

open Idealize.ShloMosaic Idealize.ShloMosaic.ValueIdx Idealize.ShloMosaic.StableHlo Idealize.SL.Sem
open Cert.ReferenceIdeal Cert.ReferenceIdeal.Gen Cert.ReferenceIdeal.Value Cert.Lib.Rows Cert.Lib.ColumnStack

/-- The three products' dimension records are the plain matrix product's. -/
theorem dot1_eq : dot_S1000000x128_S128x64_S1000000x64_1_0_0_1_n_n = DotDims.plain 1000000 128 64 := rfl
theorem dot2_eq : dot_S1000000x64_S64x64_S1000000x64_1_0_0_1_n_n = DotDims.plain 1000000 64 64 := rfl
theorem dot3_eq : dot_S1000000x64_S64x1_S1000000x1_1_0_0_1_n_n = DotDims.plain 1000000 64 1 := rfl

/-- Summing a 1000000 × 64 array along its rows leaves one number per row. -/
theorem reduces_rows : (S1000000x64 : Shape).Reduces [1] S1000000 := by decide

/-- A per-row number made a column reads, at row `r`, that number. -/
theorem column_apply' {α : Type} {n : ℕ} (x : (⟨1, ![n]⟩ : Shape).Idx → α)
    (h : (⟨1, ![n]⟩ : Shape).BroadcastsInDim ⟨2, ![n, 1]⟩ ![0]) (j : (⟨2, ![n, 1]⟩ : Shape).Idx) :
    broadcastInDim ⟨2, ![n, 1]⟩ ![0] h x j = x (rowOf j) :=
  broadcastInDim_column_apply x ![0] rfl h j

/-- The row of a column's index. -/
theorem rowOf_ix2 {n K : ℕ} (p : Fin n) (u : Fin K) : rowOf (ix2 p u) = ix1 p := rfl

/-- The gathered array: for each edge, the rows of the node table at its two end points, side by side. -/
def gathered (V0 : Valuation τ sig (Elt Ideal)) : FVec Ideal S1000000x128 .f32 :=
  (concatenate S1000000x128 1 [⟨S1000000x64, (Host.gather gather_S100000x64_S1000000x1_S1000000x64_1_0_n_n_0_1_164 (V0 (Proc.devRef .tc main_arg0)) (broadcastInDim S1000000x1 ![0] bcast_S1000000_S1000000x1_0 (select (cmpi .slt (res_main_v1 V0) (broadcastInDim S1000000 ![] bcast_S_S1000000 (constantI S_ 32 0#32))) (addi (res_main_v1 V0) (broadcastInDim S1000000 ![] bcast_S_S1000000 (constantI S_ 32 100000#32))) (res_main_v1 V0))))⟩, ⟨S1000000x64, (Host.gather gather_S100000x64_S1000000x1_S1000000x64_1_0_n_n_0_1_164 (V0 (Proc.devRef .tc main_arg0)) (broadcastInDim S1000000x1 ![0] bcast_S1000000_S1000000x1_0 (select (cmpi .slt (res_main_v3 V0) (broadcastInDim S1000000 ![] bcast_S_S1000000 (constantI S_ 32 0#32))) (addi (res_main_v3 V0) (broadcastInDim S1000000 ![] bcast_S_S1000000 (constantI S_ 32 100000#32))) (res_main_v3 V0))))⟩] concatenates_S1000000x64_S1000000x64_S1000000x128_d1)

/-- The same as a function of the node table `x` and the edge list `idx` alone: each end point's index (moved up by the
    table's height when negative) picks a row of the table. -/
def gatheredOf (x : FVec Ideal S100000x64 .f32) (idx : IVec S2x1000000 32) : FVec Ideal S1000000x128 .f32 :=
  (concatenate S1000000x128 1 [⟨S1000000x64, (Host.gather gather_S100000x64_S1000000x1_S1000000x64_1_0_n_n_0_1_164 x (broadcastInDim S1000000x1 ![0] bcast_S1000000_S1000000x1_0 (select (cmpi .slt (shapeCast S1000000 (extractStridedSlice S1x1000000 ![0, 0] idx slices_S2x1000000_S1x1000000_0_0) shapeCasts_S1x1000000_S1000000) (broadcastInDim S1000000 ![] bcast_S_S1000000 (constantI S_ 32 0#32))) (addi (shapeCast S1000000 (extractStridedSlice S1x1000000 ![0, 0] idx slices_S2x1000000_S1x1000000_0_0) shapeCasts_S1x1000000_S1000000) (broadcastInDim S1000000 ![] bcast_S_S1000000 (constantI S_ 32 100000#32))) (shapeCast S1000000 (extractStridedSlice S1x1000000 ![0, 0] idx slices_S2x1000000_S1x1000000_0_0) shapeCasts_S1x1000000_S1000000))))⟩, ⟨S1000000x64, (Host.gather gather_S100000x64_S1000000x1_S1000000x64_1_0_n_n_0_1_164 x (broadcastInDim S1000000x1 ![0] bcast_S1000000_S1000000x1_0 (select (cmpi .slt (shapeCast S1000000 (extractStridedSlice S1x1000000 ![1, 0] idx slices_S2x1000000_S1x1000000_1_0) shapeCasts_S1x1000000_S1000000) (broadcastInDim S1000000 ![] bcast_S_S1000000 (constantI S_ 32 0#32))) (addi (shapeCast S1000000 (extractStridedSlice S1x1000000 ![1, 0] idx slices_S2x1000000_S1x1000000_1_0) shapeCasts_S1x1000000_S1000000) (broadcastInDim S1000000 ![] bcast_S_S1000000 (constantI S_ 32 100000#32))) (shapeCast S1000000 (extractStridedSlice S1x1000000 ![1, 0] idx slices_S2x1000000_S1x1000000_1_0) shapeCasts_S1x1000000_S1000000))))⟩] concatenates_S1000000x64_S1000000x64_S1000000x128_d1)

theorem gathered_eq (V0 : Valuation τ sig (Elt Ideal)) :
    gathered V0 = gatheredOf (V0 (Proc.devRef .tc main_arg0)) (V0 (Proc.devRef .tc main_arg1)) := rfl

/-- The reference's normalise–scale–shift–tanh of a 1000000 × 64 array `h`, as it spells it: the row means by a sum from
    zero divided by 64, the centred array, its squares' row means, the reciprocal root, the two vectors broadcast down. -/
def rLN (h : FVec Ideal S1000000x64 .f32) (g bt : FVec Ideal S64 .f32) : FVec Ideal S1000000x64 .f32 :=
  have mu : FVec Ideal S1000000x1 .f32 := Host.divf (broadcastInDim S1000000x1 ![0] bcast_S1000000_S1000000x1_0 (Ideal.hostReduceAdd reducesTo_S1000000x64_S1000000_d1 h (Ideal.ofBits .f32 0x00000000#32))) (broadcastInDim S1000000x1 ![] bcast_S_S1000000x1 (constant S_ .f32 0x42800000#32))
  have d : FVec Ideal S1000000x64 .f32 := subf h (broadcastInDim S1000000x64 ![0, 1] bcast_S1000000x1_S1000000x64_0_1 mu)
  have var : FVec Ideal S1000000x1 .f32 := Host.divf (broadcastInDim S1000000x1 ![0] bcast_S1000000_S1000000x1_0 (Ideal.hostReduceAdd reducesTo_S1000000x64_S1000000_d1 (mulf d d) (Ideal.ofBits .f32 0x00000000#32))) (broadcastInDim S1000000x1 ![] bcast_S_S1000000x1 (constant S_ .f32 0x42800000#32))
  Host.tanh (addf (mulf (mulf d (broadcastInDim S1000000x64 ![0, 1] bcast_S1000000x1_S1000000x64_0_1 (Host.rsqrt (addf var (broadcastInDim S1000000x1 ![] bcast_S_S1000000x1 (constant S_ .f32 0x3727C5AC#32)))))) (broadcastInDim S1000000x64 ![0, 1] bcast_S1x64_S1000000x64_0_1 (broadcastInDim S1x64 ![1] bcast_S64_S1x64_1 g))) (broadcastInDim S1000000x64 ![0, 1] bcast_S1x64_S1000000x64_0_1 (broadcastInDim S1x64 ![1] bcast_S64_S1x64_1 bt)))

/-- Row `r` of the normalised array is the normalisation of row `r`. -/
theorem rLN_apply (h : FVec Ideal S1000000x64 .f32) (g bt : FVec Ideal S64 .f32) (r : Fin 1000000) (j : Fin 64) :
    rLN h g bt (ix2 r j) = Spec.lnAct (fun q => h (ix2 r q)) (fun q => g (ix1 q)) (fun q => bt (ix1 q)) j := by
  unfold rLN
  simp only [Host.tanh, Host.rsqrt, Host.divf, addf_apply, mulf_apply, subf_apply,
    broadcastInDim_a1_ab_apply (a := 1000000) (b := 64), broadcastInDim_1b_ab_apply (a := 1000000) (b := 64),
    broadcastInDim_b_1b_apply (b := 64), broadcastInDim_scalar_apply, column_apply' (n := 1000000), rowOf_ix2, constant_apply,
    hostReduceAdd_rows_apply (n := 1000000) (k := 64) _ _ _ reduces_rows, Ideal.ofBits_zero_f32, zero_add]
  rfl

/-! ## The stages, each as layers -/

theorem v22_eq (V0 : Valuation τ sig (Elt Ideal)) :
    res_main_v22 (F := Ideal) V0
      = addf (Host.dotGeneral (φ₁ := .f32) (φ₂ := .f32) dot_S1000000x128_S128x64_S1000000x64_1_0_0_1_n_n none (gathered V0) (V0 (Proc.devRef .tc main_arg2) : FVec Ideal S128x64 .f32)) (broadcastInDim S1000000x64 ![0, 1] bcast_S1x64_S1000000x64_0_1 (broadcastInDim S1x64 ![1] bcast_S64_S1x64_1 (V0 (Proc.devRef .tc main_arg3) : FVec Ideal S64 .f32))) := rfl

theorem v51_eq (V0 : Valuation τ sig (Elt Ideal)) :
    res_main_v51 (F := Ideal) V0
      = addf (Host.dotGeneral (φ₁ := .f32) (φ₂ := .f32) dot_S1000000x64_S64x64_S1000000x64_1_0_0_1_n_n none (rLN (res_main_v22 V0) (V0 (Proc.devRef .tc main_arg4) : FVec Ideal S64 .f32) (V0 (Proc.devRef .tc main_arg5) : FVec Ideal S64 .f32)) (V0 (Proc.devRef .tc main_arg6) : FVec Ideal S64x64 .f32)) (broadcastInDim S1000000x64 ![0, 1] bcast_S1x64_S1000000x64_0_1 (broadcastInDim S1x64 ![1] bcast_S64_S1x64_1 (V0 (Proc.devRef .tc main_arg7) : FVec Ideal S64 .f32))) := rfl

theorem v80_eq (V0 : Valuation τ sig (Elt Ideal)) :
    res_main_v80 (F := Ideal) V0
      = addf (Host.dotGeneral (φ₁ := .f32) (φ₂ := .f32) dot_S1000000x64_S64x64_S1000000x64_1_0_0_1_n_n none (rLN (res_main_v51 V0) (V0 (Proc.devRef .tc main_arg8) : FVec Ideal S64 .f32) (V0 (Proc.devRef .tc main_arg9) : FVec Ideal S64 .f32)) (V0 (Proc.devRef .tc main_arg10) : FVec Ideal S64x64 .f32)) (broadcastInDim S1000000x64 ![0, 1] bcast_S1x64_S1000000x64_0_1 (broadcastInDim S1x64 ![1] bcast_S64_S1x64_1 (V0 (Proc.devRef .tc main_arg11) : FVec Ideal S64 .f32))) := rfl

/-- The reference's last column: the third normalisation, the affine map to one number, and the logistic function spelt
    as one over one plus the exponential of the negation. -/
def lastCol (V0 : Valuation τ sig (Elt Ideal)) : FVec Ideal S1000000x1 .f32 :=
  Host.divf (broadcastInDim S1000000x1 ![] bcast_S_S1000000x1 (constant S_ .f32 0x3F800000#32))
    (addf (broadcastInDim S1000000x1 ![] bcast_S_S1000000x1 (constant S_ .f32 0x3F800000#32))
      (Host.exp (Host.negf (addf (Host.dotGeneral (φ₁ := .f32) (φ₂ := .f32) dot_S1000000x64_S64x1_S1000000x1_1_0_0_1_n_n none (rLN (res_main_v80 V0) (V0 (Proc.devRef .tc main_arg12) : FVec Ideal S64 .f32) (V0 (Proc.devRef .tc main_arg13) : FVec Ideal S64 .f32)) (V0 (Proc.devRef .tc main_arg14) : FVec Ideal S64x1 .f32))
        (broadcastInDim S1000000x1 ![0, 1] bcast_S1x1_S1000000x1_0_1 (broadcastInDim S1x1 ![1] bcast_S1_S1x1_1 (V0 (Proc.devRef .tc main_arg15) : FVec Ideal S1 .f32)))))))

/-! ## Each stage at row `r` -/

/-- The word of one is the number one. -/
theorem ofBits_one_f32 : Ideal.ofBits .f32 0x3F800000#32 = 1 := by
  simp [Ideal.ofBits, Ideal.ieee]
  rw [← EReal.coe_mul, ← EReal.coe_one]
  exact congrArg _ (by norm_num)

theorem v22_row (V0 : Valuation τ sig (Elt Ideal)) (r : Fin 1000000) (j : Fin 64) :
    res_main_v22 (F := Ideal) V0 (ix2 r j)
      = Spec.dense (fun k => gathered V0 (ix2 r k)) (fun k c => (V0 (Proc.devRef .tc main_arg2) : FVec Ideal S128x64 .f32) (ix2 k c)) (fun c => (V0 (Proc.devRef .tc main_arg3) : FVec Ideal S64 .f32) (ix1 c)) j := by
  rw [v22_eq]
  simp only [dot1_eq, StackMember.dotGeneral_plain_apply (m := 1000000) (k := 128) (n := 64), addf_apply, broadcastInDim_1b_ab_apply (a := 1000000) (b := 64), broadcastInDim_b_1b_apply (b := 64)]
  rfl

theorem v51_row (V0 : Valuation τ sig (Elt Ideal)) (r : Fin 1000000) (j : Fin 64) :
    res_main_v51 (F := Ideal) V0 (ix2 r j)
      = Spec.dense (Spec.lnAct (fun q => res_main_v22 V0 (ix2 r q)) (fun c => (V0 (Proc.devRef .tc main_arg4) : FVec Ideal S64 .f32) (ix1 c)) (fun c => (V0 (Proc.devRef .tc main_arg5) : FVec Ideal S64 .f32) (ix1 c)))
          (fun k c => (V0 (Proc.devRef .tc main_arg6) : FVec Ideal S64x64 .f32) (ix2 k c)) (fun c => (V0 (Proc.devRef .tc main_arg7) : FVec Ideal S64 .f32) (ix1 c)) j := by
  rw [v51_eq]
  simp only [dot2_eq, StackMember.dotGeneral_plain_apply (m := 1000000) (k := 64) (n := 64), addf_apply, broadcastInDim_1b_ab_apply (a := 1000000) (b := 64), broadcastInDim_b_1b_apply (b := 64), rLN_apply]
  rfl

theorem v80_row (V0 : Valuation τ sig (Elt Ideal)) (r : Fin 1000000) (j : Fin 64) :
    res_main_v80 (F := Ideal) V0 (ix2 r j)
      = Spec.dense (Spec.lnAct (fun q => res_main_v51 V0 (ix2 r q)) (fun c => (V0 (Proc.devRef .tc main_arg8) : FVec Ideal S64 .f32) (ix1 c)) (fun c => (V0 (Proc.devRef .tc main_arg9) : FVec Ideal S64 .f32) (ix1 c)))
          (fun k c => (V0 (Proc.devRef .tc main_arg10) : FVec Ideal S64x64 .f32) (ix2 k c)) (fun c => (V0 (Proc.devRef .tc main_arg11) : FVec Ideal S64 .f32) (ix1 c)) j := by
  rw [v80_eq]
  simp only [dot2_eq, StackMember.dotGeneral_plain_apply (m := 1000000) (k := 64) (n := 64), addf_apply, broadcastInDim_1b_ab_apply (a := 1000000) (b := 64), broadcastInDim_b_1b_apply (b := 64), rLN_apply]
  rfl

theorem lastCol_row (V0 : Valuation τ sig (Elt Ideal)) (r : Fin 1000000) :
    lastCol V0 (ix2 r (0 : Fin 1))
      = Ideal.logistic (Spec.dense (Spec.lnAct (fun q => res_main_v80 V0 (ix2 r q)) (fun c => (V0 (Proc.devRef .tc main_arg12) : FVec Ideal S64 .f32) (ix1 c)) (fun c => (V0 (Proc.devRef .tc main_arg13) : FVec Ideal S64 .f32) (ix1 c)))
          (fun k c => (V0 (Proc.devRef .tc main_arg14) : FVec Ideal S64x1 .f32) (ix2 k c)) (fun c => (V0 (Proc.devRef .tc main_arg15) : FVec Ideal S1 .f32) (ix1 c)) 0) := by
  unfold lastCol
  simp only [Host.divf, Host.exp, Host.negf, addf_apply, broadcastInDim_scalar_apply, constant_apply, dot3_eq, StackMember.dotGeneral_plain_apply (m := 1000000) (k := 64) (n := 1),
    broadcastInDim_1b_ab_apply (a := 1000000) (b := 1), broadcastInDim_b_1b_apply (b := 1), rLN_apply, ofBits_one_f32]
  rfl

/-- THE REFERENCE'S LAST COLUMN is every row's score: row `r` is the score of row `r` of the gathered array. -/
theorem lastCol_eq (V0 : Valuation τ sig (Elt Ideal)) :
    lastCol V0 = Spec.outCol (gathered V0) (V0 (Proc.devRef .tc main_arg2) : FVec Ideal S128x64 .f32) (V0 (Proc.devRef .tc main_arg3) : FVec Ideal S64 .f32) (V0 (Proc.devRef .tc main_arg4) : FVec Ideal S64 .f32) (V0 (Proc.devRef .tc main_arg5) : FVec Ideal S64 .f32) (V0 (Proc.devRef .tc main_arg6) : FVec Ideal S64x64 .f32) (V0 (Proc.devRef .tc main_arg7) : FVec Ideal S64 .f32) (V0 (Proc.devRef .tc main_arg8) : FVec Ideal S64 .f32) (V0 (Proc.devRef .tc main_arg9) : FVec Ideal S64 .f32) (V0 (Proc.devRef .tc main_arg10) : FVec Ideal S64x64 .f32) (V0 (Proc.devRef .tc main_arg11) : FVec Ideal S64 .f32) (V0 (Proc.devRef .tc main_arg12) : FVec Ideal S64 .f32) (V0 (Proc.devRef .tc main_arg13) : FVec Ideal S64 .f32) (V0 (Proc.devRef .tc main_arg14) : FVec Ideal S64x1 .f32) (V0 (Proc.devRef .tc main_arg15) : FVec Ideal S1 .f32) := by
  funext i
  obtain ⟨r, u, rfl⟩ : ∃ (r : Fin 1000000) (u : Fin 1), i = ix2 r u := ⟨i 0, i 1, eq_ix2 i⟩
  obtain rfl : u = 0 := Subsingleton.elim _ _
  rw [lastCol_row]
  unfold Spec.outCol Spec.rowOut
  simp only [v80_row, v51_row, v22_row]

end Cert.ReferenceIdeal.Row

end
-- ==== Proof.KernelBlocks.lean ====
/-
  The blocks the kernel's body is handed, and the arrays they are blocks of.

  The grid has 125 points. Point `t` is handed rows `8000 t … 8000 t + 7999` of the gathered array — row `p` of its
  block is row `8000 t + p` of the array — and the whole of every weight array, the same at every point. The weight
  arrays themselves are the arguments: the matrices with their format changed (no change on the extended reals), the
  vectors made one-row matrices.
-/
import proofs.«109361_j59528246723026_2_alg».proof.Proof.Gen.KernelIdeal.Frame
import proofs.«109361_j59528246723026_2_alg».proof.Proof.KernelRow
import proofs.«109361_j59528246723026_2_alg».proof.Proof.RefRow
import Idealize.ShloMosaic.Lib.Pipeline.Value
import Idealize.ShloMosaic.Lib.StableHlo.Run
import Idealize.ShloMosaic.Lib.ValueLayout

set_option maxRecDepth 16384

noncomputable section

namespace Cert.KernelIdeal.KValue

open Idealize.ShloMosaic Idealize.ShloMosaic.TcCoe Idealize.SL.Sem Idealize.ShloMosaic.ValueIdx
open Cert.KernelIdeal Cert.KernelIdeal.Gen Cert.KernelIdeal.Row

variable (m : (ℓ : Loc nD τ sig) → Buf (Elt Ideal) ℓ) (ρ : Dev nD → PrngReg)

/-! ## Which block each window stages at each point -/

/-- The gathered array's window and the result's move one block of 8000 rows per point. -/
theorem idx_rows : ∀ t : Fin cfg0.N, win0_0.index t (0 : Fin 2) = t.val ∧ win0_0.index t (1 : Fin 2) = 0
    ∧ win0_15.index t (0 : Fin 2) = t.val ∧ win0_15.index t (1 : Fin 2) = 0 :=
  (by decide +kernel : ∀ t : Fin grid0.N, _)

/-- Every weight window stays on its one block. -/
theorem idx_w1 : ∀ t : Fin cfg0.N, win0_1.index t (0 : Fin 2) = 0 ∧ win0_1.index t (1 : Fin 2) = 0 :=
  (by decide +kernel : ∀ t : Fin grid0.N, _)
theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w7 : ∀ t : Fin cfg0.N, win0_7.index t (0 : Fin 2) = 0 ∧ win0_7.index t (1 : Fin 2) = 0 :=
  (by decide +kernel : ∀ t : Fin grid0.N, _)
theorem idx_w8 : ∀ t : Fin cfg0.N, win0_8.index t (0 : Fin 2) = 0 ∧ win0_8.index t (1 : Fin 2) = 0 :=
  (by decide +kernel : ∀ t : Fin grid0.N, _)
theorem idx_w9 : ∀ t : Fin cfg0.N, win0_9.index t (0 : Fin 2) = 0 ∧ win0_9.index t (1 : Fin 2) = 0 :=
  (by decide +kernel : ∀ t : Fin grid0.N, _)
theorem idx_w10 : ∀ t : Fin cfg0.N, win0_10.index t (0 : Fin 2) = 0 ∧ win0_10.index t (1 : Fin 2) = 0 :=
  (by decide +kernel : ∀ t : Fin grid0.N, _)
theorem idx_w11 : ∀ t : Fin cfg0.N, win0_11.index t (0 : Fin 2) = 0 ∧ win0_11.index t (1 : Fin 2) = 0 :=
  (by decide +kernel : ∀ t : Fin grid0.N, _)
theorem idx_w12 : ∀ t : Fin cfg0.N, win0_12.index t (0 : Fin 2) = 0 ∧ win0_12.index t (1 : Fin 2) = 0 :=
  (by decide +kernel : ∀ t : Fin grid0.N, _)
theorem idx_w13 : ∀ t : Fin cfg0.N, win0_13.index t (0 : Fin 2) = 0 ∧ win0_13.index t (1 : Fin 2) = 0 :=
  (by decide +kernel : ∀ t : Fin grid0.N, _)
theorem idx_w14 : ∀ t : Fin cfg0.N, win0_14.index t (0 : Fin 2) = 0 ∧ win0_14.index t (1 : Fin 2) = 0 :=
  (by decide +kernel : ∀ t : Fin grid0.N, _)

/-- Row `p` of the block of the gathered array at point `t` is row `8000 t + p` of the array. -/
theorem iblk0_apply (c : Dev nD) (t : Fin cfg0.N) (p : Fin 8000) (k : Fin 128) :
    iblk m c 0 t (ix2 p k)
      = V m c main_v19 (ix2 (⟨t.val * 8000 + p.val, by have := t.isLt; have hN : cfg0.N = 125 := N_0; have := p.isLt; show _ < 1000000; omega⟩ : Fin 1000000) k) := by
  unfold iblk
  rw [View.read_apply]
  refine congrArg (V m c main_v19) (funext fun a => Fin.ext ?_)
  obtain ⟨h0, h1, -, -⟩ := idx_rows t
  match a with
  | ⟨0, _⟩ => show win0_0.index t (0 : Fin 2) * 8000 + 1 * p.val = t.val * 8000 + p.val; rw [h0]; omega
  | ⟨1, _⟩ => show win0_0.index t (1 : Fin 2) * 128 + 1 * k.val = k.val; rw [h1]; omega

/-- Window 1 stages its whole array at every point. -/
theorem iblk1_eq (c : Dev nD) (t : Fin cfg0.N) : iblk m c 1 t = V m c main_v20 := by
  funext y
  unfold iblk
  rw [View.read_apply]
  refine congrArg (V m c main_v20) (funext fun a => Fin.ext ?_)
  obtain ⟨h0, h1⟩ := idx_w1 t
  match a with
  | ⟨0, _⟩ => show win0_1.index t (0 : Fin 2) * 128 + 1 * (y 0).val = (y 0).val; rw [h0]; omega
  | ⟨1, _⟩ => show win0_1.index t (1 : Fin 2) * 64 + 1 * (y 1).val = (y 1).val; rw [h1]; omega

/-- Window 2 stages its whole array at every point. -/
theorem iblk2_eq (c : Dev nD) (t : Fin cfg0.N) : iblk m c 2 t = V m c main_v24 := by
  funext y
  unfold iblk
  rw [View.read_apply]
  refine congrArg (V m c main_v24) (funext fun a => Fin.ext ?_)
  obtain ⟨h0, h1⟩ := idx_w2 t
  match a with
  | ⟨0, _⟩ => show win0_2.index t (0 : Fin 2) * 1 + 1 * (y 0).val = (y 0).val; rw [h0]; omega
  | ⟨1, _⟩ => show win0_2.index t (1 : Fin 2) * 64 + 1 * (y 1).val = (y 1).val; rw [h1]; omega

/-- Window 3 stages its whole array at every point. -/
theorem iblk3_eq (c : Dev nD) (t : Fin cfg0.N) : iblk m c 3 t = V m c main_v25 := by
  funext y
  unfold iblk
  rw [View.read_apply]
  refine congrArg (V m c main_v25) (funext fun a => Fin.ext ?_)
  obtain ⟨h0, h1⟩ := idx_w3 t
  match a with
  | ⟨0, _⟩ => show win0_3.index t (0 : Fin 2) * 1 + 1 * (y 0).val = (y 0).val; rw [h0]; omega
  | ⟨1, _⟩ => show win0_3.index t (1 : Fin 2) * 64 + 1 * (y 1).val = (y 1).val; rw [h1]; omega

/-- Window 4 stages its whole array at every point. -/
theorem iblk4_eq (c : Dev nD) (t : Fin cfg0.N) : iblk m c 4 t = V m c main_v26 := by
  funext y
  unfold iblk
  rw [View.read_apply]
  refine congrArg (V m c main_v26) (funext fun a => Fin.ext ?_)
  obtain ⟨h0, h1⟩ := idx_w4 t
  match a with
  | ⟨0, _⟩ => show win0_4.index t (0 : Fin 2) * 1 + 1 * (y 0).val = (y 0).val; rw [h0]; omega
  | ⟨1, _⟩ => show win0_4.index t (1 : Fin 2) * 64 + 1 * (y 1).val = (y 1).val; rw [h1]; omega

/-- Window 5 stages its whole array at every point. -/
theorem iblk5_eq (c : Dev nD) (t : Fin cfg0.N) : iblk m c 5 t = V m c main_v21 := by
  funext y
  unfold iblk
  rw [View.read_apply]
  refine congrArg (V m c main_v21) (funext fun a => Fin.ext ?_)
  obtain ⟨h0, h1⟩ := idx_w5 t
  match a with
  | ⟨0, _⟩ => show win0_5.index t (0 : Fin 2) * 64 + 1 * (y 0).val = (y 0).val; rw [h0]; omega
  | ⟨1, _⟩ => show win0_5.index t (1 : Fin 2) * 64 + 1 * (y 1).val = (y 1).val; rw [h1]; omega

/-- Window 6 stages its whole array at every point. -/
theorem iblk6_eq (c : Dev nD) (t : Fin cfg0.N) : iblk m c 6 t = V m c main_v27 := by
  funext y
  unfold iblk
  rw [View.read_apply]
  refine congrArg (V m c main_v27) (funext fun a => Fin.ext ?_)
  obtain ⟨h0, h1⟩ := idx_w6 t
  match a with
  | ⟨0, _⟩ => show win0_6.index t (0 : Fin 2) * 1 + 1 * (y 0).val = (y 0).val; rw [h0]; omega
  | ⟨1, _⟩ => show win0_6.index t (1 : Fin 2) * 64 + 1 * (y 1).val = (y 1).val; rw [h1]; omega

/-- Window 7 stages its whole array at every point. -/
theorem iblk7_eq (c : Dev nD) (t : Fin cfg0.N) : iblk m c 7 t = V m c main_v28 := by
  funext y
  unfold iblk
  rw [View.read_apply]
  refine congrArg (V m c main_v28) (funext fun a => Fin.ext ?_)
  obtain ⟨h0, h1⟩ := idx_w7 t
  match a with
  | ⟨0, _⟩ => show win0_7.index t (0 : Fin 2) * 1 + 1 * (y 0).val = (y 0).val; rw [h0]; omega
  | ⟨1, _⟩ => show win0_7.index t (1 : Fin 2) * 64 + 1 * (y 1).val = (y 1).val; rw [h1]; omega

/-- Window 8 stages its whole array at every point. -/
theorem iblk8_eq (c : Dev nD) (t : Fin cfg0.N) : iblk m c 8 t = V m c main_v29 := by
  funext y
  unfold iblk
  rw [View.read_apply]
  refine congrArg (V m c main_v29) (funext fun a => Fin.ext ?_)
  obtain ⟨h0, h1⟩ := idx_w8 t
  match a with
  | ⟨0, _⟩ => show win0_8.index t (0 : Fin 2) * 1 + 1 * (y 0).val = (y 0).val; rw [h0]; omega
  | ⟨1, _⟩ => show win0_8.index t (1 : Fin 2) * 64 + 1 * (y 1).val = (y 1).val; rw [h1]; omega

/-- Window 9 stages its whole array at every point. -/
theorem iblk9_eq (c : Dev nD) (t : Fin cfg0.N) : iblk m c 9 t = V m c main_v22 := by
  funext y
  unfold iblk
  rw [View.read_apply]
  refine congrArg (V m c main_v22) (funext fun a => Fin.ext ?_)
  obtain ⟨h0, h1⟩ := idx_w9 t
  match a with
  | ⟨0, _⟩ => show win0_9.index t (0 : Fin 2) * 64 + 1 * (y 0).val = (y 0).val; rw [h0]; omega
  | ⟨1, _⟩ => show win0_9.index t (1 : Fin 2) * 64 + 1 * (y 1).val = (y 1).val; rw [h1]; omega

/-- Window 10 stages its whole array at every point. -/
theorem iblk10_eq (c : Dev nD) (t : Fin cfg0.N) : iblk m c 10 t = V m c main_v30 := by
  funext y
  unfold iblk
  rw [View.read_apply]
  refine congrArg (V m c main_v30) (funext fun a => Fin.ext ?_)
  obtain ⟨h0, h1⟩ := idx_w10 t
  match a with
  | ⟨0, _⟩ => show win0_10.index t (0 : Fin 2) * 1 + 1 * (y 0).val = (y 0).val; rw [h0]; omega
  | ⟨1, _⟩ => show win0_10.index t (1 : Fin 2) * 64 + 1 * (y 1).val = (y 1).val; rw [h1]; omega

/-- Window 11 stages its whole array at every point. -/
theorem iblk11_eq (c : Dev nD) (t : Fin cfg0.N) : iblk m c 11 t = V m c main_v31 := by
  funext y
  unfold iblk
  rw [View.read_apply]
  refine congrArg (V m c main_v31) (funext fun a => Fin.ext ?_)
  obtain ⟨h0, h1⟩ := idx_w11 t
  match a with
  | ⟨0, _⟩ => show win0_11.index t (0 : Fin 2) * 1 + 1 * (y 0).val = (y 0).val; rw [h0]; omega
  | ⟨1, _⟩ => show win0_11.index t (1 : Fin 2) * 64 + 1 * (y 1).val = (y 1).val; rw [h1]; omega

/-- Window 12 stages its whole array at every point. -/
theorem iblk12_eq (c : Dev nD) (t : Fin cfg0.N) : iblk m c 12 t = V m c main_v32 := by
  funext y
  unfold iblk
  rw [View.read_apply]
  refine congrArg (V m c main_v32) (funext fun a => Fin.ext ?_)
  obtain ⟨h0, h1⟩ := idx_w12 t
  match a with
  | ⟨0, _⟩ => show win0_12.index t (0 : Fin 2) * 1 + 1 * (y 0).val = (y 0).val; rw [h0]; omega
  | ⟨1, _⟩ => show win0_12.index t (1 : Fin 2) * 64 + 1 * (y 1).val = (y 1).val; rw [h1]; omega

/-- Window 13 stages its whole array at every point. -/
theorem iblk13_eq (c : Dev nD) (t : Fin cfg0.N) : iblk m c 13 t = V m c main_v23 := by
  funext y
  unfold iblk
  rw [View.read_apply]
  refine congrArg (V m c main_v23) (funext fun a => Fin.ext ?_)
  obtain ⟨h0, h1⟩ := idx_w13 t
  match a with
  | ⟨0, _⟩ => show win0_13.index t (0 : Fin 2) * 64 + 1 * (y 0).val = (y 0).val; rw [h0]; omega
  | ⟨1, _⟩ => show win0_13.index t (1 : Fin 2) * 1 + 1 * (y 1).val = (y 1).val; rw [h1]; omega

/-- Window 14 stages its whole array at every point. -/
theorem iblk14_eq (c : Dev nD) (t : Fin cfg0.N) : iblk m c 14 t = V m c main_v33 := by
  funext y
  unfold iblk
  rw [View.read_apply]
  refine congrArg (V m c main_v33) (funext fun a => Fin.ext ?_)
  obtain ⟨h0, h1⟩ := idx_w14 t
  match a with
  | ⟨0, _⟩ => show win0_14.index t (0 : Fin 2) * 1 + 1 * (y 0).val = (y 0).val; rw [h0]; omega
  | ⟨1, _⟩ => show win0_14.index t (1 : Fin 2) * 1 + 1 * (y 1).val = (y 1).val; rw [h1]; omega

/-! ## What the host lines before the region leave in each window's array -/

/-- The region finds window 1's array at the argument, its format changed (no change on the extended reals). -/
theorem V_main_v20 (c : Dev nD) (y : S128x64.Idx) : V m c main_v20 y = (m ((c : Thread nD τ).loc main_arg2)) y := by
  have e : (V m c main_v20 : S128x64.Idx → EReal) = truncf (F := Ideal) .bf16 (m ((c : Thread nD τ).loc main_arg2)) bitsLt_bf16_f32 := by
    show StableHlo.after hostOps0 (fun b => m (c, b)) (Proc.devRef .tc main_v20) = _
    after_results
  rw [e]
  rfl

/-- The region finds window 2's array at the argument vector, made a one-row matrix. -/
theorem V_main_v24 (c : Dev nD) (j : Fin 64) : V m c main_v24 (ix2 (0 : Fin 1) j) = (m ((c : Thread nD τ).loc main_arg3)) (ix1 j) := by
  have e : (V m c main_v24 : S1x64.Idx → EReal) = shapeCast S1x64 (m ((c : Thread nD τ).loc main_arg3)) shapeCasts_S64_S1x64 := by
    show StableHlo.after hostOps0 (fun b => m (c, b)) (Proc.devRef .tc main_v24) = _
    after_results
    rfl
  rw [e]
  exact shapeCast_a_1a_apply _ _ (0 : Fin 1) j

/-- The region finds window 3's array at the argument vector, made a one-row matrix. -/
theorem V_main_v25 (c : Dev nD) (j : Fin 64) : V m c main_v25 (ix2 (0 : Fin 1) j) = (m ((c : Thread nD τ).loc main_arg4)) (ix1 j) := by
  have e : (V m c main_v25 : S1x64.Idx → EReal) = shapeCast S1x64 (m ((c : Thread nD τ).loc main_arg4)) shapeCasts_S64_S1x64 := by
    show StableHlo.after hostOps0 (fun b => m (c, b)) (Proc.devRef .tc main_v25) = _
    after_results
    rfl
  rw [e]
  exact shapeCast_a_1a_apply _ _ (0 : Fin 1) j

/-- The region finds window 4's array at the argument vector, made a one-row matrix. -/
theorem V_main_v26 (c : Dev nD) (j : Fin 64) : V m c main_v26 (ix2 (0 : Fin 1) j) = (m ((c : Thread nD τ).loc main_arg5)) (ix1 j) := by
  have e : (V m c main_v26 : S1x64.Idx → EReal) = shapeCast S1x64 (m ((c : Thread nD τ).loc main_arg5)) shapeCasts_S64_S1x64 := by
    show StableHlo.after hostOps0 (fun b => m (c, b)) (Proc.devRef .tc main_v26) = _
    after_results
    rfl
  rw [e]
  exact shapeCast_a_1a_apply _ _ (0 : Fin 1) j

/-- The region finds window 5's array at the argument, its format changed (no change on the extended reals). -/
theorem V_main_v21 (c : Dev nD) (y : S64x64.Idx) : V m c main_v21 y = (m ((c : Thread nD τ).loc main_arg6)) y := by
  have e : (V m c main_v21 : S64x64.Idx → EReal) = truncf (F := Ideal) .bf16 (m ((c : Thread nD τ).loc main_arg6)) bitsLt_bf16_f32 := by
    show StableHlo.after hostOps0 (fun b => m (c, b)) (Proc.devRef .tc main_v21) = _
    after_results
  rw [e]
  rfl

/-- The region finds window 6's array at the argument vector, made a one-row matrix. -/
theorem V_main_v27 (c : Dev nD) (j : Fin 64) : V m c main_v27 (ix2 (0 : Fin 1) j) = (m ((c : Thread nD τ).loc main_arg7)) (ix1 j) := by
  have e : (V m c main_v27 : S1x64.Idx → EReal) = shapeCast S1x64 (m ((c : Thread nD τ).loc main_arg7)) shapeCasts_S64_S1x64 := by
    show StableHlo.after hostOps0 (fun b => m (c, b)) (Proc.devRef .tc main_v27) = _
    after_results
    rfl
  rw [e]
  exact shapeCast_a_1a_apply _ _ (0 : Fin 1) j

/-- The region finds window 7's array at the argument vector, made a one-row matrix. -/
theorem V_main_v28 (c : Dev nD) (j : Fin 64) : V m c main_v28 (ix2 (0 : Fin 1) j) = (m ((c : Thread nD τ).loc main_arg8)) (ix1 j) := by
  have e : (V m c main_v28 : S1x64.Idx → EReal) = shapeCast S1x64 (m ((c : Thread nD τ).loc main_arg8)) shapeCasts_S64_S1x64 := by
    show StableHlo.after hostOps0 (fun b => m (c, b)) (Proc.devRef .tc main_v28) = _
    after_results
    rfl
  rw [e]
  exact shapeCast_a_1a_apply _ _ (0 : Fin 1) j

/-- The region finds window 8's array at the argument vector, made a one-row matrix. -/
theorem V_main_v29 (c : Dev nD) (j : Fin 64) : V m c main_v29 (ix2 (0 : Fin 1) j) = (m ((c : Thread nD τ).loc main_arg9)) (ix1 j) := by
  have e : (V m c main_v29 : S1x64.Idx → EReal) = shapeCast S1x64 (m ((c : Thread nD τ).loc main_arg9)) shapeCasts_S64_S1x64 := by
    show StableHlo.after hostOps0 (fun b => m (c, b)) (Proc.devRef .tc main_v29) = _
    after_results
    rfl
  rw [e]
  exact shapeCast_a_1a_apply _ _ (0 : Fin 1) j

/-- The region finds window 9's array at the argument, its format changed (no change on the extended reals). -/
theorem V_main_v22 (c : Dev nD) (y : S64x64.Idx) : V m c main_v22 y = (m ((c : Thread nD τ).loc main_arg10)) y := by
  have e : (V m c main_v22 : S64x64.Idx → EReal) = truncf (F := Ideal) .bf16 (m ((c : Thread nD τ).loc main_arg10)) bitsLt_bf16_f32 := by
    show StableHlo.after hostOps0 (fun b => m (c, b)) (Proc.devRef .tc main_v22) = _
    after_results
  rw [e]
  rfl

/-- The region finds window 10's array at the argument vector, made a one-row matrix. -/
theorem V_main_v30 (c : Dev nD) (j : Fin 64) : V m c main_v30 (ix2 (0 : Fin 1) j) = (m ((c : Thread nD τ).loc main_arg11)) (ix1 j) := by
  have e : (V m c main_v30 : S1x64.Idx → EReal) = shapeCast S1x64 (m ((c : Thread nD τ).loc main_arg11)) shapeCasts_S64_S1x64 := by
    show StableHlo.after hostOps0 (fun b => m (c, b)) (Proc.devRef .tc main_v30) = _
    after_results
    rfl
  rw [e]
  exact shapeCast_a_1a_apply _ _ (0 : Fin 1) j

/-- The region finds window 11's array at the argument vector, made a one-row matrix. -/
theorem V_main_v31 (c : Dev nD) (j : Fin 64) : V m c main_v31 (ix2 (0 : Fin 1) j) = (m ((c : Thread nD τ).loc main_arg12)) (ix1 j) := by
  have e : (V m c main_v31 : S1x64.Idx → EReal) = shapeCast S1x64 (m ((c : Thread nD τ).loc main_arg12)) shapeCasts_S64_S1x64 := by
    show StableHlo.after hostOps0 (fun b => m (c, b)) (Proc.devRef .tc main_v31) = _
    after_results
    rfl
  rw [e]
  exact shapeCast_a_1a_apply _ _ (0 : Fin 1) j

/-- The region finds window 12's array at the argument vector, made a one-row matrix. -/
theorem V_main_v32 (c : Dev nD) (j : Fin 64) : V m c main_v32 (ix2 (0 : Fin 1) j) = (m ((c : Thread nD τ).loc main_arg13)) (ix1 j) := by
  have e : (V m c main_v32 : S1x64.Idx → EReal) = shapeCast S1x64 (m ((c : Thread nD τ).loc main_arg13)) shapeCasts_S64_S1x64 := by
    show StableHlo.after hostOps0 (fun b => m (c, b)) (Proc.devRef .tc main_v32) = _
    after_results
    rfl
  rw [e]
  exact shapeCast_a_1a_apply _ _ (0 : Fin 1) j

/-- The region finds window 13's array at the argument, its format changed (no change on the extended reals). -/
theorem V_main_v23 (c : Dev nD) (y : S64x1.Idx) : V m c main_v23 y = (m ((c : Thread nD τ).loc main_arg14)) y := by
  have e : (V m c main_v23 : S64x1.Idx → EReal) = truncf (F := Ideal) .bf16 (m ((c : Thread nD τ).loc main_arg14)) bitsLt_bf16_f32 := by
    show StableHlo.after hostOps0 (fun b => m (c, b)) (Proc.devRef .tc main_v23) = _
    after_results
  rw [e]
  rfl

/-- The region finds window 14's array at the argument vector, made a one-row matrix. -/
theorem V_main_v33 (c : Dev nD) (j : Fin 1) : V m c main_v33 (ix2 (0 : Fin 1) j) = (m ((c : Thread nD τ).loc main_arg15)) (ix1 j) := by
  have e : (V m c main_v33 : S1x1.Idx → EReal) = shapeCast S1x1 (m ((c : Thread nD τ).loc main_arg15)) shapeCasts_S1_S1x1 := by
    show StableHlo.after hostOps0 (fun b => m (c, b)) (Proc.devRef .tc main_v33) = _
    after_results
    rfl
  rw [e]
  exact shapeCast_a_1a_apply _ _ (0 : Fin 1) j

end Cert.KernelIdeal.KValue

end
-- ==== Proof.KernelGather.lean ====
/-
  The gathered array as the region finds it.

  Before the region the host changes the node table's format (no change on the extended reals), splits the edge list
  into its two rows of end points, moves negative indices up by the table's height, gathers a row of the table per end
  point and joins the two gathered arrays side by side: the same array the reference gathers from the table itself.
-/
import proofs.«109361_j59528246723026_2_alg».proof.Proof.KernelBlocks

set_option maxRecDepth 16384

noncomputable section

namespace Cert.KernelIdeal.KValue

open Idealize.ShloMosaic Idealize.ShloMosaic.TcCoe Idealize.SL.Sem Idealize.ShloMosaic.ValueIdx
open Cert.KernelIdeal Cert.KernelIdeal.Gen Cert.KernelIdeal.Row

variable (m : (ℓ : Loc nD τ sig) → Buf (Elt Ideal) ℓ) (ρ : Dev nD → PrngReg)

set_option maxHeartbeats 4000000 in
/-- The region finds the gathered array: for each edge, the two end points' rows of the node table, side by side. -/
theorem V_main_v19 (c : Dev nD) :
    (V m c main_v19 : S1000000x128.Idx → EReal) = Cert.ReferenceIdeal.Row.gatheredOf (m ((c : Thread nD τ).loc main_arg0)) (m ((c : Thread nD τ).loc main_arg1)) := by
  show StableHlo.after hostOps0 (fun b => m (c, b)) (Proc.devRef .tc main_v19) = _
  after_results
  rfl

end Cert.KernelIdeal.KValue

end
-- ==== Proof.KernelValue.lean ====
/-
  The result column after the region, and the kernel's run.

  Point `t` writes back the scores of the 8000 rows it was handed; the 125 blocks tile the column, so after the region
  the column holds every row's score, and the host's last line flattens it into the result.
-/
import proofs.«109361_j59528246723026_2_alg».proof.Proof.KernelGather

set_option maxRecDepth 16384

noncomputable section

namespace Cert.KernelIdeal.KValue

open Idealize.ShloMosaic Idealize.ShloMosaic.TcCoe Idealize.SL.Sem Idealize.ShloMosaic.ValueIdx
open Cert.KernelIdeal Cert.KernelIdeal.Gen Cert.KernelIdeal.Row

variable (m : (ℓ : Loc nD τ sig) → Buf (Elt Ideal) ℓ) (ρ : Dev nD → PrngReg)

/-- Two scores of rows and weights that agree entry by entry are one score. -/
theorem rowOut_congr {e e' : Fin 128 → EReal} {W1 W1' : Fin 128 → Fin 64 → EReal} {b1 b1' : Fin 64 → EReal} {g1 g1' : Fin 64 → EReal} {bt1 bt1' : Fin 64 → EReal} {W2 W2' : Fin 64 → Fin 64 → EReal} {b2 b2' : Fin 64 → EReal} {g2 g2' : Fin 64 → EReal} {bt2 bt2' : Fin 64 → EReal} {W3 W3' : Fin 64 → Fin 64 → EReal} {b3 b3' : Fin 64 → EReal} {g3 g3' : Fin 64 → EReal} {bt3 bt3' : Fin 64 → EReal} {W4 W4' : Fin 64 → Fin 1 → EReal} {b4 b4' : Fin 1 → EReal}
    (h0 : ∀ k, e k = e' k) (h1 : ∀ k c, W1 k c = W1' k c) (h2 : ∀ k, b1 k = b1' k) (h3 : ∀ k, g1 k = g1' k) (h4 : ∀ k, bt1 k = bt1' k) (h5 : ∀ k c, W2 k c = W2' k c) (h6 : ∀ k, b2 k = b2' k) (h7 : ∀ k, g2 k = g2' k) (h8 : ∀ k, bt2 k = bt2' k) (h9 : ∀ k c, W3 k c = W3' k c) (h10 : ∀ k, b3 k = b3' k) (h11 : ∀ k, g3 k = g3' k) (h12 : ∀ k, bt3 k = bt3' k) (h13 : ∀ k c, W4 k c = W4' k c) (h14 : ∀ k, b4 k = b4' k) :
    Spec.rowOut e W1 b1 g1 bt1 W2 b2 g2 bt2 W3 b3 g3 bt3 W4 b4 = Spec.rowOut e' W1' b1' g1' bt1' W2' b2' g2' bt2' W3' b3' g3' bt3' W4' b4' := by
  obtain rfl : e = e' := funext h0
  obtain rfl : W1 = W1' := funext fun k => funext fun c => h1 k c
  obtain rfl : b1 = b1' := funext h2
  obtain rfl : g1 = g1' := funext h3
  obtain rfl : bt1 = bt1' := funext h4
  obtain rfl : W2 = W2' := funext fun k => funext fun c => h5 k c
  obtain rfl : b2 = b2' := funext h6
  obtain rfl : g2 = g2' := funext h7
  obtain rfl : bt2 = bt2' := funext h8
  obtain rfl : W3 = W3' := funext fun k => funext fun c => h9 k c
  obtain rfl : b3 = b3' := funext h10
  obtain rfl : g3 = g3' := funext h11
  obtain rfl : bt3 = bt3' := funext h12
  obtain rfl : W4 = W4' := funext fun k => funext fun c => h13 k c
  obtain rfl : b4 = b4' := funext h14
  rfl

theorem hz : (![0, 0] : Fin 2 → Nat) = fun _ => 0 := funext fun a => by fin_cases a <;> rfl

/-- The column of every edge's score, of the argument arrays as launched. -/
def col (c : Dev nD) : S1000000x1.Idx → EReal :=
  Spec.outCol (Cert.ReferenceIdeal.Row.gatheredOf (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-- WHAT POINT `t` WRITES BACK is block `t` of that column. -/
theorem flushed_eq (c : Dev nD) (t : Fin cfg0.N) :
    (dats m 0 c).flushed 15 t = ((cfg0.win 15).blk t).view.read (Elt Ideal) (col m c) := by
  show (cfg0.win 15).cut (grid0.coords t) ((dats m 0 c).after 15 t) = _
  rw [after0_15]
  unfold out0_15
  rw [View.canon_unit_zero hz]
  simp only [View.ld_unit_zero (S := S8000x128) hz, View.ld_unit_zero (S := S128x64) hz, View.ld_unit_zero (S := S1x64) hz, View.ld_unit_zero (S := S64x64) hz, View.ld_unit_zero (S := S64x1) hz, View.ld_unit_zero (S := S1x1) hz]
  funext y
  obtain ⟨p, u, rfl⟩ : ∃ (p : Fin 8000) (u : Fin 1), y = ix2 p u := ⟨y 0, y 1, eq_ix2 y⟩
  obtain rfl : u = 0 := Subsingleton.elim _ _
  refine (pay_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p).trans ?_
  show _ = col m c (((cfg0.win 15).blk t).view.emb (ix2 p (0 : Fin 1)))
  obtain ⟨-, -, h0, h1⟩ := idx_rows t
  have hrow : ((cfg0.win 15).blk t).view.emb (ix2 p (0 : Fin 1))
      = ix2 (⟨t.val * 8000 + p.val, by have := t.isLt; have hN : cfg0.N = 125 := N_0; have := p.isLt; show _ < 1000000; omega⟩ : Fin 1000000) (0 : Fin 1) := by
    funext a; apply Fin.ext
    match a with
    | ⟨0, _⟩ => show win0_15.index t (0 : Fin 2) * 8000 + 1 * p.val = t.val * 8000 + p.val; rw [h0]; omega
    | ⟨1, _⟩ => show win0_15.index t (1 : Fin 2) * 1 + 1 * 0 = 0; rw [h1]
  rw [hrow]
  unfold col Spec.outCol
  simp only [iblk0_apply, iblk1_eq, iblk2_eq, iblk3_eq, iblk4_eq, iblk5_eq, iblk6_eq, iblk7_eq, iblk8_eq, iblk9_eq, iblk10_eq, iblk11_eq, iblk12_eq, iblk13_eq, iblk14_eq]
  exact rowOut_congr (fun k => congrFun (V_main_v19 m c) _) (fun k c' => V_main_v20 m c _) (fun j => V_main_v24 m c j) (fun j => V_main_v25 m c j) (fun j => V_main_v26 m c j) (fun k c' => V_main_v21 m c _) (fun j => V_main_v27 m c j) (fun j => V_main_v28 m c j) (fun j => V_main_v29 m c j) (fun k c' => V_main_v22 m c _) (fun j => V_main_v30 m c j) (fun j => V_main_v31 m c j) (fun j => V_main_v32 m c j) (fun k c' => V_main_v23 m c _) (fun j => V_main_v33 m c j)

/-- An index of the column is in point `t`'s block iff each coordinate is in the block's range on its axis. -/
theorem mem_blk (t : Fin cfg0.N) (i : S1000000x1.Idx) :
    i ∈ ((cfg0.win 15).blk t).view.set ↔ ∀ a : Fin 2, win0_15.index t a * S8000x1.size a ≤ (i a).val ∧ (i a).val < win0_15.index t a * S8000x1.size a + S8000x1.size a := by
  show i ∈ ((View.whole main_v34).slice (win0_15.rect t)).set ↔ _
  rw [View.set_slice_whole, Rect.mem_set_unit]
  exact Iff.rfl

/-- Row `r` of the column is in the block of point `r / 8000`: the 125 blocks tile the column. -/
theorem cover (i : S1000000x1.Idx) :
    ∃ t : Fin cfg0.N, (cfg0.win 15).flush t = true ∧ i ∈ ((cfg0.win 15).blk t).view.set := by
  have hi0 : (i 0).val < 1000000 := (i 0).isLt
  have hi1 : (i 1).val < 1 := (i 1).isLt
  have hN : cfg0.N = 125 := N_0
  obtain ⟨t, ht⟩ : ∃ t : Fin cfg0.N, t.val = (i 0).val / 8000 := ⟨⟨(i 0).val / 8000, by omega⟩, rfl⟩
  obtain ⟨-, -, h0, h1⟩ := idx_rows t
  refine ⟨t, flush0_15 t, ?_⟩
  rw [mem_blk]
  intro a
  match a with
  | ⟨0, _⟩ =>
    show win0_15.index t (0 : Fin 2) * 8000 ≤ (i 0).val ∧ (i 0).val < win0_15.index t (0 : Fin 2) * 8000 + 8000
    rw [h0, ht]; omega
  | ⟨1, _⟩ =>
    show win0_15.index t (1 : Fin 2) * 1 ≤ (i 1).val ∧ (i 1).val < win0_15.index t (1 : Fin 2) * 1 + 1
    rw [h1]; omega

/-- THE COLUMN after the region holds every row's score. -/
theorem final15 (c : Dev nD) : (dats m 0 c).arrAt 15 cfg0.N = col m c :=
  (dats m 0 c).arrAt_eq_of_cover 15 (col m c) (fun t _ => flushed_eq m c t) cover

/-- The host's last line flattens the column. -/
theorem tail_eq (c : Dev nD) :
    Pipeline.afterTail₀ cfgs (dats m) 0 (V0 m) [hostOps1] c main_v35
      = shapeCast S1000000 (col m c) shapeCasts_S1000000x1_S1000000 := by
  unfold Pipeline.afterTail₀
  show StableHlo.after hostOps1 _ (Proc.devRef .tc main_v35) = _
  after_results
  have e := (Pipeline.withArrays_arr spec0 launch0.win.arr_inj c (V0 m c) (fun w => (dats m 0 c).arrAt w cfg0.N) 15).trans
    (final15 m c)
  funext i
  exact congrFun (congrArg (fun X => shapeCast S1000000 X shapeCasts_S1000000x1_S1000000) e) i

/-- THE KERNEL'S RUN: every weakly fair execution terminates with the result at the flattened column of scores and the
    arguments unchanged. -/
theorem run : θ_run defs (onTc (τ := τ) (main (F := Ideal))) ⟨m, fun _ => 0, ρ⟩ (fun r => ∀ c : Dev nD,
      r.2.mem ((c.tc : Thread nD τ).loc main_v35) = shapeCast S1000000 (col m c) shapeCasts_S1000000x1_S1000000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨((h c).2 main_v35 (Pipeline.mem_restRefs_of main_v35 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c)⟩)
    (run_main m ρ)

end Cert.KernelIdeal.KValue

end
-- ==== Proof.lean ====
/-
  The certificate's claim: the edge-scoring kernel and its reference compute the same scores on the extended reals.

  Both programs gather, for each of the 1000000 edges, the two end points' rows of the node table into a 128-vector, and
  score it by a small network: three rounds of an affine map, a normalisation to mean zero and unit variance with a
  scale and shift, and tanh; then an affine map to one number and the logistic function. The kernel gathers on the
  host, runs the network on blocks of 8000 edges over a grid of 125 points, and flattens the result column; the
  reference runs it on all edges at once. Every operation of the network acts row by row, so each side's row `r` is the
  score of row `r` of the same gathered array (Proof/KernelRow.lean, Proof/RefRow.lean, over the per-edge function of
  Proof/Spec.lean); the blocks tile the column (Proof/KernelValue.lean). A change of float format is the identity on
  the extended reals, a matrix product into a zero accumulator and the host's product are one sum, a lane sum and the
  host's sum from zero are one sum, and the logistic function is one over one plus the exponential of the negation,
  so the two scores are one function and no property of the inputs is needed. The three frames are the generated
  frame runs (the reference's its generated run with the result dropped); the idealisation rewrote nothing.
-/
import proofs.«109361_j59528246723026_2_alg».proof.Defs
import proofs.«109361_j59528246723026_2_alg».proof.Proof.Gen.Kernel
import proofs.«109361_j59528246723026_2_alg».proof.Proof.Gen.Kernel.Skeleton
import proofs.«109361_j59528246723026_2_alg».proof.Proof.Gen.Kernel.Launch
import proofs.«109361_j59528246723026_2_alg».proof.Proof.Gen.Kernel.Points
import proofs.«109361_j59528246723026_2_alg».proof.Proof.Gen.Kernel.Frame
import proofs.«109361_j59528246723026_2_alg».proof.Proof.Gen.KernelIdeal
import proofs.«109361_j59528246723026_2_alg».proof.Proof.Gen.KernelIdeal.Skeleton
import proofs.«109361_j59528246723026_2_alg».proof.Proof.Gen.KernelIdeal.Launch
import proofs.«109361_j59528246723026_2_alg».proof.Proof.Gen.KernelIdeal.Points
import proofs.«109361_j59528246723026_2_alg».proof.Proof.Gen.KernelIdeal.Frame
import proofs.«109361_j59528246723026_2_alg».proof.Proof.Gen.ReferenceIdeal
import proofs.«109361_j59528246723026_2_alg».proof.Proof.Gen.Pre_finite_inputs
import proofs.«109361_j59528246723026_2_alg».proof.Proof.Gen.ReferenceIdeal.Run
import proofs.«109361_j59528246723026_2_alg».proof.Proof.KernelValue
import proofs.«109361_j59528246723026_2_alg».proof.Proof.RefRow
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the flattened column of every edge's score. -/
theorem algebraic : Cert.algebraic_KernelIdeal_ReferenceIdeal := by
  intro m ρ m' ρ' _ hagree
  refine ⟨fun c => shapeCast Cert.KernelIdeal.S1000000 (Cert.KernelIdeal.KValue.col m c) Cert.KernelIdeal.Facts₀.shapeCasts_S1000000x1_S1000000,
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  show shapeCast Cert.ReferenceIdeal.S1000000 (Cert.ReferenceIdeal.Row.lastCol (StableHlo.launchContents m' c)) Cert.ReferenceIdeal.Facts₀.shapeCasts_S1000000x1_S1000000
    = shapeCast Cert.ReferenceIdeal.S1000000 (Cert.KernelIdeal.KValue.col m c) Cert.ReferenceIdeal.Facts₀.shapeCasts_S1000000x1_S1000000
  refine congrArg (fun X => shapeCast Cert.ReferenceIdeal.S1000000 X Cert.ReferenceIdeal.Facts₀.shapeCasts_S1000000x1_S1000000) ?_
  rw [Cert.ReferenceIdeal.Row.lastCol_eq, Cert.ReferenceIdeal.Row.gathered_eq]
  show Spec.outCol (Cert.ReferenceIdeal.Row.gatheredOf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) = _
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
